-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩

abbrev nBuf : Space → Nat
  | .hbm => 52
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S1x128, .f32⟩
  | .hbm, ⟨51, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x128, .f32⟩
  | .hbm, ⟨106, _⟩ => ⟨S1600000x1, .f32⟩
  | .hbm, ⟨107, _⟩ => ⟨S1600000x128, .f32⟩
  | .hbm, ⟨108, _⟩ => ⟨S1600000x128, .f32⟩
  | .hbm, ⟨109, _⟩ => ⟨S_, .f32⟩
  | .hbm, ⟨110, _⟩ => ⟨S100000x128, .f32⟩
  | .hbm, ⟨111, _⟩ => ⟨S1600000x1, .i32⟩
  | .hbm, ⟨112, _⟩ => ⟨S100000x128, .f32⟩
  | .hbm, ⟨113, _⟩ => ⟨S100000, .f32⟩
  | .hbm, ⟨114, _⟩ => ⟨S100000x1, .f32⟩
  | .hbm, ⟨115, _⟩ => ⟨S100000x128, .f32⟩
  | .hbm, ⟨116, _⟩ => ⟨S100000x128, .f32⟩
  | .hbm, ⟨117, _⟩ => ⟨S100000x128, .f32⟩
  | .hbm, ⟨118, _⟩ => ⟨S1x128, .f32⟩
  | .hbm, ⟨119, _⟩ => ⟨S100000x128, .f32⟩
  | .hbm, ⟨120, _⟩ => ⟨S100000x128, .f32⟩
  | .hbm, ⟨121, _⟩ => ⟨S_, .f32⟩
  | .hbm, ⟨122, _⟩ => ⟨S100000x128, .f32⟩
  | .hbm, ⟨123, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call1_cst : Ref sig .tc := ⟨.hbm, 121, rfl⟩
abbrev main_call1_v0 : Ref sig .tc := ⟨.hbm, 122, rfl⟩
abbrev main_v93 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.LibVecRead.lean ====
/-
  Vector operations of small literal shapes read at an index built from coordinates: a column made from a
  vector, a column broadcast over the lanes, a rectangular slice with offsets on both axes, a sum along the
  lanes as a finite sum, and the mask "row index equals lane index".  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.VecRead

open Idealize.ShloMosaic Idealize.ShloMosaic.ValueIdx

variable {α : Type}

/-- A vector of length `a` viewed as an `a × 1` column reads, at `(r, 0)`, the vector at `r`. -/
theorem shapeCast_col_apply {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) :=
  shapeCast_apply v h _ _ (by
    have hz : z.val = 0 := by omega
    rw [Shape.rowMajor_val_one, Shape.rowMajor_val_two]
    show r.val = r.val * 1 + z.val
    omega)

/-- An `a × 1` column broadcast to `a × b` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A rectangular slice with unit strides reads, at `(r, c)`, the operand at `(o₀ + r, o₁ + c)`. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩) (r : Fin m0) (c : Fin m1) (r' : Fin n0) (c' : Fin n1)
    (hr : r'.val = o0 + r.val) (hc : c'.val = o1 + c.val) :
    extractStridedSlice ⟨2, ![m0, m1]⟩ ![o0, o1] X h (ix2 r c) = X (ix2 r' c') :=
  extractStridedSlice_apply _ X h _ _ fun ax => match ax with
    | ⟨0, _⟩ => hr
    | ⟨1, _⟩ => hc

/-- At the extended reals a sum along the lanes of an `a × b` array, from the zero word, is at row `r` the finite sum
    of the row's entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec FTy.f32.bits) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun d => Fin.ext ?_)
  match d with
  | ⟨0, _⟩ => rfl
  | ⟨1, _⟩ => rfl

/-- The mask "row index = lane index" of an `n × n` tile, `n` below `2^32`. -/
theorem eyeMask_apply {n : ℕ} (hn : n ≤ 4294967296) (h0 : (⟨2, ![n, n]⟩ : Shape).Iotas .tc 32 [0]) (h1 : (⟨2, ![n, n]⟩ : Shape).Iotas .tc 32 [1])
    (r c : Fin n) :
    cmpi .eq (iota .tc ⟨2, ![n, n]⟩ 32 [0] h0) (iota .tc ⟨2, ![n, n]⟩ 32 [1] h1) (ix2 r c) = if r = c then 1#1 else 0#1 := by
  show IntOp.cmpi .eq (iota .tc ⟨2, ![n, n]⟩ 32 [0] h0 (ix2 r c)) (iota .tc ⟨2, ![n, n]⟩ 32 [1] h1 (ix2 r c)) = _
  rw [iota_single_apply, iota_single_apply]
  show BitVec.ofBool (BitVec.ofNat 32 r.val == BitVec.ofNat 32 c.val) = _
  have hr := r.isLt
  have hc := c.isLt
  by_cases e : r = c
  · subst e; simp
  · have : r.val ≠ c.val := fun hv => e (Fin.ext hv)
    have hne : BitVec.ofNat 32 r.val ≠ BitVec.ofNat 32 c.val := by
      intro hv
      have := congrArg BitVec.toNat hv
      simp only [BitVec.toNat_ofNat] at this
      rw [Nat.mod_eq_of_lt (by omega), Nat.mod_eq_of_lt (by omega)] at this
      exact ‹r.val ≠ c.val› this
    rw [if_neg e, beq_eq_false_iff_ne.mpr hne]
    rfl

/-- A select under that mask against the zero word, summed along the lanes, keeps the diagonal entry: every other
    term of the sum is zero. -/
theorem sum_eye_select {n : ℕ} (f : Fin n → EReal) (r : Fin n) :
    (∑ k : Fin n, Scalar.select (if r = k then 1#1 else 0#1) (f k) (0 : EReal)) = f r := by
  have : ∀ k : Fin n, Scalar.select (if r = k then 1#1 else 0#1) (f k) (0 : EReal) = if r = k then f k else 0 := by
    intro k; by_cases e : r = k <;> simp [e, Scalar.select]
  simp only [this, Finset.sum_ite_eq, Finset.mem_univ, if_true]

end Cert.VecRead

end
-- ==== Proof.KPay.lean ====
/-
  What each of the three kernel bodies stores, read at an entry (p, u) of its 5000 × 128 output block, on the
  extended reals, as a function of the blocks it loads.

    * The first body stores the product of its feature block with the weights, each row scaled by the row's
      coefficient: (Σ_k x (p, k) · w (k, u)) · d (p).
    * The second body first forms the activation a (p, k) = max (d (p) · (g (p, k) + s (p, k)) + b (k)) 0 from the
      aggregated block g, the scaled block s, the coefficient column d and the bias row b, then stores its product
      with the weights scaled by the row's coefficient: (Σ_k a (p, k) · w (k, u)) · d (p).
    * The third body stores the activation itself: max (d (p) · (g (p, u) + s (p, u)) + b (u)) 0.

  A change of float format is the identity on the extended reals, a cast of a block to its own shape is the block,
  the coefficient column [5000, 1] broadcast along the lanes reads the row's entry, and the bias row [1, 128]
  broadcast down the rows reads the column's entry.
-/
import proofs.«155647_j65274912964675_2_alg».proof.Proof.Gen.KernelIdeal.Skeleton
import proofs.«155647_j65274912964675_2_alg».proof.Proof.LibRowsProduct
import proofs.«155647_j65274912964675_2_alg».proof.Proof.LibVecRead
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The zero word, the value the maxima compare with and the sums start from. -/
abbrev zw : EReal := Ideal.ofBits .f32 0x00000000#32

/-! ## The block product -/

theorem dot_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem dot_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem dot_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem dot_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product of a 5000 × 128 block with the 128 × 128 weights into the zero accumulator, at (p, u): the sum over
    the contracted channel, whatever formats the operands are typed at. -/
theorem tile_product {φ₁ φ₂ : FTy} (lhs : FVec Ideal S5000x128 φ₁) (rhs : FVec Ideal S128x128 φ₂) (p : Fin 5000) (u : Fin 128) :
    matmul dot_S5000x128_S128x128_S5000x128_1_0_0_1_n_n none lhs rhs (constant (F := Ideal) S5000x128 .f32 0x00000000#32) (ix2 p u)
      = ∑ k : Fin 128, lhs (ix2 p k) * rhs (ix2 k u) :=
  Cert.RowsProduct.matmul_zero_rows_apply (a := 5000) (K := 128) (b := 128) dot_S5000x128_S128x128_S5000x128_1_0_0_1_n_n none rfl rfl
    dot_l0 dot_l1 dot_r0 dot_r1 lhs rhs p u

/-! ## The coefficient column and the bias row -/

/-- The coefficient column cast to its own shape and broadcast along the lanes reads, at (p, u), the row's entry. -/
theorem coef_apply (d : FVec Ideal S5000x1 .f32) (p : Fin 5000) (u : Fin 128) :
    broadcastTo S5000x128 (shapeCast S5000x1 d shapeCasts_S5000x1_S5000x1) broadcasts_S5000x1_S5000x128 (ix2 p u) = d (ix2 p (0 : Fin 1)) := by
  rw [shapeCast_self]
  exact Cert.VecRead.broadcastTo_col_apply (a := 5000) (b := 128) d broadcasts_S5000x1_S5000x128 p u

/-- The bias row cast to its own shape twice and broadcast down the rows reads, at (p, u), the column's entry. -/
theorem bias_apply (b : FVec Ideal S1x128 .f32) (p : Fin 5000) (u : Fin 128) :
    broadcastTo S5000x128 (shapeCast S1x128 (shapeCast S1x128 b shapeCasts_S1x128_S1x128) shapeCasts_S1x128_S1x128) broadcasts_S1x128_S5000x128 (ix2 p u)
      = b (ix2 (0 : Fin 1) u) := by
  rw [shapeCast_self, shapeCast_self]
  refine broadcastTo_apply b broadcasts_S1x128_S5000x128 (ix2 p u) (ix2 (0 : Fin 1) u) fun ax => ?_
  match ax with
  | ⟨0, _⟩ => rfl
  | ⟨1, _⟩ => rfl

/-! ## The three bodies -/

/-- The activation the second and third bodies form, at (p, u). -/
def act (b : FVec Ideal S1x128 .f32) (d : FVec Ideal S5000x1 .f32) (g s : FVec Ideal S5000x128 .f32) (p : Fin 5000) (u : Fin 128) : EReal :=
  max (d (ix2 p (0 : Fin 1)) * (g (ix2 p u) + s (ix2 p u)) + b (ix2 (0 : Fin 1) u)) zw

theorem pay0_apply (x : Vec Ideal S5000x128 .f32) (w : Vec Ideal S128x128 .f32) (d : Vec Ideal S5000x1 .f32) (p : Fin 5000) (u : Fin 128) :
    k0_pay1 (F := Ideal) x w d (ix2 p u) = (∑ k : Fin 128, x (ix2 p k) * w (ix2 k u)) * d (ix2 p (0 : Fin 1)) := by
  unfold k0_pay1
  rw [mulf_apply, tile_product, coef_apply]
  rfl

theorem pay2_apply (b : Vec Ideal S1x128 .f32) (d : Vec Ideal S5000x1 .f32) (g s : Vec Ideal S5000x128 .f32) (p : Fin 5000) (u : Fin 128) :
    k2_pay1 (F := Ideal) b d g s (ix2 p u) = act b d g s p u := by
  unfold k2_pay1 act
  rw [maximumf_apply, addf_apply, mulf_apply, addf_apply, coef_apply, bias_apply, shapeCast_self, shapeCast_self]
  rfl

theorem pay1_apply (b : Vec Ideal S1x128 .f32) (d : Vec Ideal S5000x1 .f32) (g s : Vec Ideal S5000x128 .f32) (w : Vec Ideal S128x128 .f32)
    (p : Fin 5000) (u : Fin 128) :
    k1_pay1 (F := Ideal) b d g s w (ix2 p u) = (∑ k : Fin 128, act b d g s p k * w (ix2 k u)) * d (ix2 p (0 : Fin 1)) := by
  unfold k1_pay1
  rw [mulf_apply, tile_product, coef_apply]
  refine congrArg (· * d (ix2 p (0 : Fin 1))) (Finset.sum_congr rfl fun k _ => ?_)
  refine congrArg (· * w (ix2 k u)) ?_
  unfold act
  rw [truncf_apply, maximumf_apply, addf_apply, mulf_apply, addf_apply, coef_apply, bias_apply, shapeCast_self, shapeCast_self]
  rfl

end Cert.KernelIdeal.Hand

end
-- ==== Proof.KRegion0.lean ====
/-
  The first region, as one function of the arrays it finds.

  The region walks 20 blocks of 5000 rows. At each it loads the block of features, the whole weights and the block of
  the coefficient column, and writes back the product scaled row by row. Block t of every blocked array starts at row
  5000 · t and the weights' only block is the whole array, so what point t writes back is block t of ONE function of
  the whole arrays: row n, channel u holds (Σ_k x (n, k) · w (k, u)) · d (n). The 20 blocks cover the rows, so the
  output array ends holding that function.
-/
import proofs.«155647_j65274912964675_2_alg».proof.Proof.Gen.KernelIdeal.Frame
import proofs.«155647_j65274912964675_2_alg».proof.Proof.KPay
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- Rows of `x · w` scaled by the coefficient column: entry (n, u) is (Σ_k x (n, k) · w (k, u)) · d (n). -/
def scaledProduct (x : FVec Ideal S100000x128 .f32) (w : FVec Ideal S128x128 .f32) (d : FVec Ideal S100000x1 .f32) :
    S100000x128.Idx → EReal :=
  fun i => (∑ k : Fin 128, x (ix2 (n0 := 100000) (n1 := 128) (i 0) k) * w (ix2 (n0 := 128) (n1 := 128) k (i 1)))
    * d (ix2 (n0 := 100000) (n1 := 1) (i 0) (0 : Fin 1))

/-- The function at explicit coordinates. -/
theorem scaledProduct_apply (x : FVec Ideal S100000x128 .f32) (w : FVec Ideal S128x128 .f32) (d : FVec Ideal S100000x1 .f32)
    (n : Fin 100000) (v : Fin 128) :
    scaledProduct x w d (ix2 n v) = (∑ k : Fin 128, x (ix2 n k) * w (ix2 k v)) * d (ix2 n (0 : Fin 1)) := rfl

/-- The body's stored value at an entry of its block is the function at the entry's place in the arrays, when the
    loaded blocks hold the arrays' entries there. -/
theorem block0 (x0 : Vec Ideal S5000x128 .f32) (x1 : Vec Ideal S128x128 .f32) (x2 : Vec Ideal S5000x1 .f32)
    (X : FVec Ideal S100000x128 .f32) (Wt : FVec Ideal S128x128 .f32) (D : FVec Ideal S100000x1 .f32)
    (p : Fin 5000) (u : Fin 128) (n : Fin 100000) (v : Fin 128)
    (h0 : ∀ k : Fin 128, x0 (ix2 p k) = X (ix2 n k))
    (h1 : ∀ k : Fin 128, x1 (ix2 k u) = Wt (ix2 k v))
    (h2 : x2 (ix2 p (0 : Fin 1)) = D (ix2 n (0 : Fin 1))) :
    k0_pay1 (F := Ideal) x0 x1 x2 (ix2 p u) = scaledProduct X Wt D (ix2 n v) := by
  rw [pay0_apply, scaledProduct_apply, h2]
  refine congrArg (· * D (ix2 n (0 : Fin 1))) (Finset.sum_congr rfl fun k _ => ?_)
  rw [h0, h1]

/-- The printed index maps over the grid: the blocked windows move together along the rows, the other coordinates
    stay at block 0. -/
theorem idx_facts0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 :=
  (by decide +kernel : ∀ t : Fin grid0.N, _)

/-- Every block of rows is some point's. -/
theorem idx_onto0 : ∀ q : Fin 20, ∃ t : Fin cfg0.N, win0_3.index t = ![q.val, 0] :=
  (by decide +kernel : ∀ q : Fin 20, ∃ t : Fin grid0.N, win0_3.index t = ![q.val, 0])

/-- What point `t` writes back is block `t` of the function of the arrays as the region finds them. -/
theorem flushed0 (c : Dev nD) (t : Fin cfg0.N) :
    (dat0 (F := Ideal) V c).flushed 3 t
      = ((cfg0.win 3).blk t).view.read (Elt Ideal) (scaledProduct (V c main_arg0) (V c main_arg2) (V c main_v11)) := by
  show (cfg0.win 3).cut (grid0.coords t) ((dat0 V c).after 3 t) = _
  rw [after0_3]
  unfold out0_3
  rw [View.canon_unit_zero origin2]
  simp only [View.ld_unit_zero (S := S5000x128) origin2, View.ld_unit_zero (S := S128x128) origin2, View.ld_unit_zero (S := S5000x1) origin2]
  obtain ⟨e0, e1, e2, e3, e4, e5, e6⟩ := idx_facts0 t
  funext j
  have hj : j = ix2 (n0 := 5000) (n1 := 128) (j 0) (j 1) := eq_ix2 j
  have hi : ((cfg0.win 3).blk t).view.emb j
      = ix2 (n0 := 100000) (n1 := 128) (((cfg0.win 3).blk t).view.emb j 0) (((cfg0.win 3).blk t).view.emb j 1) := eq_ix2 _
  refine (congrArg (k0_pay1 (F := Ideal) _ _ _) hj).trans ((block0 _ _ _ _ _ _ (j 0) (j 1) _ _ (fun k => ?_) (fun k => ?_) ?_).trans
    (congrArg (scaledProduct _ _ _) hi.symm))
  · show V c main_arg0 (((cfg0.win 0).blk t).view.emb (ix2 (n0 := 5000) (n1 := 128) (j 0) k)) = V c main_arg0 _
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show V c main_arg2 (((cfg0.win 1).blk t).view.emb (ix2 (n0 := 128) (n1 := 128) k (j 1))) = V c main_arg2 _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · show V c main_v11 (((cfg0.win 2).blk t).view.emb (ix2 (n0 := 5000) (n1 := 1) (j 0) (0 : Fin 1))) = V c main_v11 _
    refine congrArg _ (funext fun a => Fin.ext ?_)
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega

/-- An index of the output array is in point `t`'s block iff each coordinate is in the block's range. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v12).slice (win0_3.rect t)).set ↔ _
  rw [View.set_slice_whole, Rect.mem_set_unit]
  exact Iff.rfl

/-- The blocks cover the output array: row r lies in block r / 5000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region is the function of the arrays as the region finds them. -/
theorem final0 (c : Dev nD) :
    (dat0 (F := Ideal) V c).arrAt 3 cfg0.N = scaledProduct (V c main_arg0) (V c main_arg2) (V c main_v11) :=
  (dat0 (F := Ideal) V c).arrAt_eq_of_cover 3 _ (fun t _ => flushed0 V c t) cover0

end Cert.KernelIdeal.Hand

end
-- ==== Proof.LibGcnLayer.lean ====
/-
  One layer of a graph convolution with symmetric normalisation, written twice.

  Nodes `ν`, edges `ε`, channels `κ`. Every edge `e` reads the features of a source node `gs e`; `T n` is the
  finite set of edges whose destination is node `n`; `dinv n` is the inverse square root of `1 +` the number of
  edges arriving at `n`. With `h = hin · W` (a product over the channels):

    * `layerK` scales the rows first: `hs n = h n · dinv n`, adds up `hs (gs e)` over `e ∈ T n` from the
      starting value `z`, adds the node's own `hs n`, scales the total once by `dinv n`, adds the bias and
      takes the maximum with `zr`;
    * `layerR` scales every edge's message by `dinv (gs e) · dinv (gd e)`, where `gd e` is the destination the
      edge reads its coefficient from, adds the messages up, adds the node's own `h n · (dinv n · dinv n)`,
      the bias, and takes the same maximum.

  On the extended reals the two agree when every quantity is a real number, the starting value is zero, and an
  edge of `T n` reads its coefficient at `n`: multiplication by the real `dinv n` distributes over the sum.
-/
import Idealize.ShloMosaic.PureOps.Ideal.Laws

noncomputable section

open scoped BigOperators

namespace Cert.Gcn

variable {ν ε κ : Type*} [Fintype κ]

/-- The product of a feature row with the weights: channel `j` of `hin n · W`. -/
def lin (hin : ν → κ → EReal) (W : κ → κ → EReal) (n : ν) (j : κ) : EReal := ∑ k, hin n k * W k j

/-- One layer, rows scaled before the edges are added up and the total scaled once more. -/
def layerK (dinv : ν → EReal) (gs : ε → ν) (T : ν → Finset ε) (z zr : EReal)
    (hin : ν → κ → EReal) (W : κ → κ → EReal) (b : κ → EReal) (n : ν) (j : κ) : EReal :=
  max (dinv n * ((z + ∑ e ∈ T n, lin hin W (gs e) j * dinv (gs e)) + lin hin W n j * dinv n) + b j) zr

/-- One layer, every edge's message scaled by the product of the two coefficients. -/
def layerR (dinv : ν → EReal) (gs gd : ε → ν) (T : ν → Finset ε) (z zr : EReal)
    (hin : ν → κ → EReal) (W : κ → κ → EReal) (b : κ → EReal) (n : ν) (j : κ) : EReal :=
  max (((z + ∑ e ∈ T n, lin hin W (gs e) j * (dinv (gs e) * dinv (gd e))) + lin hin W n j * (dinv n * dinv n)) + b j) zr

end Cert.Gcn

end
-- ==== Proof.LibSegment.lean ====
/-
  Rows named by a column of row numbers: what `x[rows]` and `segment_sum(u, rows)` read at an index.

  A column `idx : [E, 1]` of signed integers names, for each entry `e`, a row of an array with `N` rows.
  A gather clamps the number into `[0, N - 1]` (`clampRow`); a scatter keeps it as it is and drops the
  entry when it lies outside `[0, N)` (`landRow`). With that reading
    * the gather of whole rows of an `N × C` array is the array at row `clampRow e`, same column;
    * the gather of entries of a length-`N` vector is the vector at `clampRow e`;
    * at the extended reals the accumulating scatter of an `E × C` array of updates into an `N × C` array is,
      at `(n, c)`, the operand plus the sum of the updates `(e, c)` over the entries `e` that land on row `n`;
    * the same for a length-`E` vector of updates into a length-`N` vector.
  No program is imported: the dimension records are stated with their well-formedness as a hypothesis, so a
  program's printed record is one of these by `rfl`.
-/
import Idealize.ShloMosaic.Lib.ValueIdx
import Idealize.ShloMosaic.PureOps.Ideal
import Idealize.ShloMosaic.PureOps.Ideal.Laws
import Idealize.ShloMosaic.PureOps.Contract

noncomputable section

namespace Idealize.ShloMosaic.Segment

open Idealize.ShloMosaic Idealize.ShloMosaic.ValueIdx

variable {N E C w : Nat}

/-- Entry `e` of a column of row numbers, read as a signed integer. -/
def rowInt (idx : IVec ⟨2, ![E, 1]⟩ w) (e : Fin E) : Int := (idx (ix2 e (0 : Fin 1))).toInt

/-- The row entry `e` lands on when the number is used as it is: none when it is outside `[0, N)`. -/
def landRow (N : Nat) (idx : IVec ⟨2, ![E, 1]⟩ w) (e : Fin E) : Option (Fin N) :=
  if h : 0 ≤ rowInt idx e ∧ rowInt idx e < N then some ⟨(rowInt idx e).toNat, by omega⟩ else none

/-- The row entry `e` reads when the number is clamped into `[0, N - 1]`. -/
def clampRow (hN : 0 < N) (idx : IVec ⟨2, ![E, 1]⟩ w) (e : Fin E) : Fin N :=
  ⟨min (rowInt idx e).toNat (N - 1), by omega⟩

/-- An entry that lands on row `n` reads row `n` when clamped, through any column holding the same number there. -/
theorem clampRow_of_landRow (hN : 0 < N) (idx idx' : IVec ⟨2, ![E, 1]⟩ w) (e : Fin E) (n : Fin N)
    (h : landRow N idx e = some n) (h' : rowInt idx' e = rowInt idx e) : clampRow hN idx' e = n := by
  unfold landRow at h
  split at h
  · obtain rfl := Option.some.inj h
    apply Fin.ext
    show min (rowInt idx' e).toNat (N - 1) = (rowInt idx e).toNat
    rw [h']
    omega
  · cases h

/-- The dimension numbers of `x[rows, :]`: operand `[N, C]`, row numbers `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of `v[rows]`: operand `[N]`, row numbers `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of a scatter of rows: operand `[N, C]`, row numbers `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of scalars: operand `[N]`, row numbers `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- `x[rows, :]` at `(e, c)` is `x` at the clamped row of entry `e`, column `c`. -/
theorem gatherRows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow hN idx e) c) := by
  unfold Host.gather
  congr 1
  funext a
  match a with
  | ⟨0, _⟩ =>
    refine Fin.ext ?_
    show (rowGatherDims N E C wf).start (ix2 e c) idx 0 + (rowGatherDims N E C wf).batchCoord (ix2 e c) 0 + (rowGatherDims N E C wf).offCoord (ix2 e c) 0
      = min (rowInt idx e).toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    refine Fin.ext ?_
    show (rowGatherDims N E C wf).start (ix2 e c) idx 1 + (rowGatherDims N E C wf).batchCoord (ix2 e c) 1 + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show ¬ (1 : Fin 2) ∈ ([0] : List (Fin 2)) by decide)]
    have ho : (rowGatherDims N E C wf).offCoord (ix2 e c) 1 = c.val := by
      unfold GatherDims.offCoord
      have hk' : (1 : Fin 2) ∈ (List.finRange 2).filter
          (fun a => decide (a ∉ (([0] : List (Fin 2)) ++ ([] : List (Fin 2))))) := by decide
      have hk : (1 : Fin 2) ∈ (rowGatherDims N E C wf).sKept := hk'
      rw [dif_pos hk]
      rfl
    rw [hs, ho]
    simp

/-- `v[rows]` at `e` is `v` at the clamped row of entry `e`. -/
theorem gatherVec_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0 + (vecGatherDims N E wf).offCoord (ix1 e) 0
    = min (rowInt idx e).toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The start of update `(e, c)` of a scatter of rows on the row axis is the row number of entry `e`. -/
theorem rowScatter_start0 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = rowInt idx e := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The start of every update of a scatter of rows on the column axis is `0`. -/
theorem rowScatter_start1 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show ¬ (1 : Fin 2) ∈ ([0] : List (Fin 2)) by decide)]

/-- The window coordinate of update `(e, c)` of a scatter of rows on the row axis is `0`. -/
theorem rowScatter_window0 (wf : ScatterDims.WF ⟨2, ![N, C]⟩ ⟨2, ![E, 1]⟩ ⟨2, ![E, C]⟩ [1] [0] [0] 1) (e : Fin E) (c : Fin C) :
    (rowScatterDims N E C wf).window (ix2 e c) 0 = 0 := by
  unfold ScatterDims.window
  have hk : (0 : Fin 2) ∉ (rowScatterDims N E C wf).sKept :=
    (show ¬ (0 : Fin 2) ∈ (List.finRange 2).filter (fun a => decide (a ∉ ([0] : List (Fin 2)))) by decide)
  rw [dif_neg hk]

/-- The window coordinate of update `(e, c)` of a scatter of rows on the column axis is `c`. -/
theorem rowScatter_window1 (wf : ScatterDims.WF ⟨2, ![N, C]⟩ ⟨2, ![E, 1]⟩ ⟨2, ![E, C]⟩ [1] [0] [0] 1) (e : Fin E) (c : Fin C) :
    (rowScatterDims N E C wf).window (ix2 e c) 1 = c.val := by
  unfold ScatterDims.window
  have hk : (1 : Fin 2) ∈ (rowScatterDims N E C wf).sKept :=
    (show (1 : Fin 2) ∈ (List.finRange 2).filter (fun a => decide (a ∉ ([0] : List (Fin 2)))) by decide)
  rw [dif_pos hk]
  rfl

/-- Where update `(e, c)` of a scatter of rows lands: row `landRow e`, column `c`, or nowhere. -/
theorem rowScatter_resultIdx (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).resultIdx? (ix2 e c) idx = (landRow N idx e).map (fun n => ix2 n c) := by
  have h0 := rowScatter_start0 wf idx e c
  have h1 := rowScatter_start1 wf idx e c
  have w0 := rowScatter_window0 (N := N) wf e c
  have w1 := rowScatter_window1 (N := N) wf e c
  unfold ScatterDims.resultIdx? landRow
  by_cases hr : 0 ≤ rowInt idx e ∧ rowInt idx e < N
  · have hall : ∀ a : Fin 2, 0 ≤ (rowScatterDims N E C wf).start (ix2 e c) idx a + ((rowScatterDims N E C wf).window (ix2 e c) a : Int)
        ∧ (rowScatterDims N E C wf).start (ix2 e c) idx a + ((rowScatterDims N E C wf).window (ix2 e c) a : Int) < ((⟨2, ![N, C]⟩ : Shape).size a : Int) := by
      intro a
      match a with
      | ⟨0, _⟩ =>
        show 0 ≤ (rowScatterDims N E C wf).start (ix2 e c) idx 0 + ((rowScatterDims N E C wf).window (ix2 e c) 0 : Int)
          ∧ (rowScatterDims N E C wf).start (ix2 e c) idx 0 + ((rowScatterDims N E C wf).window (ix2 e c) 0 : Int) < (N : Int)
        rw [h0, w0]; omega
      | ⟨1, _⟩ =>
        show 0 ≤ (rowScatterDims N E C wf).start (ix2 e c) idx 1 + ((rowScatterDims N E C wf).window (ix2 e c) 1 : Int)
          ∧ (rowScatterDims N E C wf).start (ix2 e c) idx 1 + ((rowScatterDims N E C wf).window (ix2 e c) 1 : Int) < (C : Int)
        rw [h1, w1]; have := c.isLt; omega
    rw [dif_pos hall, dif_pos hr]
    show some _ = some _
    congr 1
    funext a
    match a with
    | ⟨0, _⟩ =>
      refine Fin.ext ?_
      show ((rowScatterDims N E C wf).start (ix2 e c) idx 0 + ((rowScatterDims N E C wf).window (ix2 e c) 0 : Int)).toNat = (rowInt idx e).toNat
      rw [h0, w0]; simp
    | ⟨1, _⟩ =>
      refine Fin.ext ?_
      show ((rowScatterDims N E C wf).start (ix2 e c) idx 1 + ((rowScatterDims N E C wf).window (ix2 e c) 1 : Int)).toNat = c.val
      rw [h1, w1]; simp
  · have hnot : ¬ ∀ a : Fin 2, 0 ≤ (rowScatterDims N E C wf).start (ix2 e c) idx a + ((rowScatterDims N E C wf).window (ix2 e c) a : Int)
        ∧ (rowScatterDims N E C wf).start (ix2 e c) idx a + ((rowScatterDims N E C wf).window (ix2 e c) a : Int) < ((⟨2, ![N, C]⟩ : Shape).size a : Int) := by
      intro hall
      have h := hall 0
      have h' : 0 ≤ (rowScatterDims N E C wf).start (ix2 e c) idx 0 + ((rowScatterDims N E C wf).window (ix2 e c) 0 : Int)
          ∧ (rowScatterDims N E C wf).start (ix2 e c) idx 0 + ((rowScatterDims N E C wf).window (ix2 e c) 0 : Int) < (N : Int) := h
      rw [h0, w0] at h'
      exact hr (by omega)
    rw [dif_neg hnot, dif_neg hr]
    rfl

/-- The start of update `e` of a scatter of scalars is the row number of entry `e`. -/
theorem vecScatter_start0 (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = rowInt idx e := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The window coordinate of every update of a scatter of scalars is `0`. -/
theorem vecScatter_window0 (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  have hk' : ¬ (0 : Fin 1) ∈ (List.finRange 1).filter (fun a => decide (a ∉ ([0] : List (Fin 1)))) := by decide
  have hk : (0 : Fin 1) ∉ (vecScatterDims N E wf).sKept := hk'
  rw [dif_neg hk]

/-- Where update `e` of a scatter of scalars lands: entry `landRow e`, or nowhere. -/
theorem vecScatter_resultIdx (wf : ScatterDims.WF ⟨1, ![N]⟩ ⟨2, ![E, 1]⟩ ⟨1, ![E]⟩ [] [0] [0] 1)
    (idx : IVec ⟨2, ![E, 1]⟩ w) (e : Fin E) :
    (vecScatterDims N E wf).resultIdx? (ix1 e) idx = (landRow N idx e).map (fun n => ix1 n) := by
  have h0 := vecScatter_start0 wf idx e
  have w0 := vecScatter_window0 (N := N) wf e
  unfold ScatterDims.resultIdx? landRow
  by_cases hr : 0 ≤ rowInt idx e ∧ rowInt idx e < N
  · have hall : ∀ a : Fin 1, 0 ≤ (vecScatterDims N E wf).start (ix1 e) idx a + ((vecScatterDims N E wf).window (ix1 e) a : Int)
        ∧ (vecScatterDims N E wf).start (ix1 e) idx a + ((vecScatterDims N E wf).window (ix1 e) a : Int) < ((⟨1, ![N]⟩ : Shape).size a : Int) := by
      intro a
      match a with
      | ⟨0, _⟩ =>
        show 0 ≤ (vecScatterDims N E wf).start (ix1 e) idx 0 + ((vecScatterDims N E wf).window (ix1 e) 0 : Int)
        ∧ (vecScatterDims N E wf).start (ix1 e) idx 0 + ((vecScatterDims N E wf).window (ix1 e) 0 : Int) < (N : Int)
        rw [h0, w0]; omega
    rw [dif_pos hall, dif_pos hr]
    show some _ = some _
    congr 1
    funext a
    match a with
    | ⟨0, _⟩ =>
      refine Fin.ext ?_
      show ((vecScatterDims N E wf).start (ix1 e) idx 0 + ((vecScatterDims N E wf).window (ix1 e) 0 : Int)).toNat = (rowInt idx e).toNat
      rw [h0, w0]; simp
  · have hnot : ¬ ∀ a : Fin 1, 0 ≤ (vecScatterDims N E wf).start (ix1 e) idx a + ((vecScatterDims N E wf).window (ix1 e) a : Int)
        ∧ (vecScatterDims N E wf).start (ix1 e) idx a + ((vecScatterDims N E wf).window (ix1 e) a : Int) < ((⟨1, ![N]⟩ : Shape).size a : Int) := by
      intro hall
      have h := hall 0
      have h' : 0 ≤ (vecScatterDims N E wf).start (ix1 e) idx 0 + ((vecScatterDims N E wf).window (ix1 e) 0 : Int)
        ∧ (vecScatterDims N E wf).start (ix1 e) idx 0 + ((vecScatterDims N E wf).window (ix1 e) 0 : Int) < (N : Int) := h
      rw [h0, w0] at h'
      exact hr (by omega)
    rw [dif_neg hnot, dif_neg hr]
    rfl

/-- At the extended reals the accumulating scatter of rows, at `(n, c)`: the operand there plus the updates
    `(e, c)` of the entries `e` landing on row `n`. -/
theorem scatterAddRows_apply {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (rowScatterDims N E C wf) x idx upd (ix2 n c)
      = (x (ix2 n c) : EReal) + ∑ e ∈ Finset.univ.filter (fun e : Fin E => landRow N idx e = some n), (upd (ix2 e c) : EReal) := by
  show Ideal.hostScatterAdd (rowScatterDims N E C wf) x idx upd (ix2 n c) = _
  unfold Ideal.hostScatterAdd
  congr 1
  rw [Finset.sum_filter, Finset.sum_filter, sum_idx2]
  refine Finset.sum_congr rfl fun a _ => ?_
  have hP : ∀ b : Fin C, ((rowScatterDims N E C wf).resultIdx? (ix2 a b) idx = some (ix2 n c)) ↔ (landRow N idx a = some n ∧ b = c) := by
    intro b
    rw [rowScatter_resultIdx]
    cases landRow N idx a with
    | none => simp
    | some m =>
      simp only [Option.map_some, Option.some.injEq]
      constructor
      · intro h
        exact ⟨congrFun h 0, congrFun h 1⟩
      · rintro ⟨rfl, rfl⟩; rfl
  simp only [hP]
  by_cases hl : landRow N idx a = some n
  · simp [hl, Finset.sum_ite_eq']
  · simp [hl]

/-- A sum over the indices of a length-`n` vector is the sum over its one coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ ?_
  intro i
  exact congrArg f (eq_ix1 i)

/-- At the extended reals the accumulating scatter of scalars, at `n`: the operand there plus the updates of
    the entries landing on `n`. -/
theorem scatterAddVec_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatterDims N E wf) x idx upd (ix1 n)
      = (x (ix1 n) : EReal) + ∑ e ∈ Finset.univ.filter (fun e : Fin E => landRow N idx e = some n), (upd (ix1 e) : EReal) := by
  show Ideal.hostScatterAdd (vecScatterDims N E wf) x idx upd (ix1 n) = _
  unfold Ideal.hostScatterAdd
  congr 1
  rw [Finset.sum_filter, Finset.sum_filter, sum_idx1]
  refine Finset.sum_congr rfl fun a _ => ?_
  have hP : ((vecScatterDims N E wf).resultIdx? (ix1 a) idx = some (ix1 n)) ↔ landRow N idx a = some n := by
    rw [vecScatter_resultIdx]
    cases landRow N idx a with
    | none => simp
    | some m =>
      simp only [Option.map_some, Option.some.injEq]
      constructor
      · intro h
        exact congrFun h 0
      · rintro rfl; rfl
  simp only [hP]

end Idealize.ShloMosaic.Segment

end
-- ==== Proof.RefValue.lean ====
/-
  The value of the reference program, read at one entry (n, j) of its result.

  The reference is two graph-convolution layers over the same edge list. From the edge list alone it forms
    * dinv n, the inverse square root of one plus the number of edges whose raw destination number is n;
    * for every edge e the row gs e its source number names once wrapped and clamped into the node range,
      and the row gd e its destination number names read the same way;
    * for every node n the set T n of the edges whose raw destination number is exactly n (an edge whose
      number lies outside the node range is in no T n).
  One layer takes features hin, weights W and a bias b, forms h = hin · W, multiplies the row h (gs e) of
  every edge by dinv (gs e) · dinv (gd e), adds these rows up over e ∈ T n starting from the zero word,
  adds h n · (dinv n · dinv n), then b, and takes the maximum with the zero word.

  This is proved once for a layer whose product h is arbitrary (refLayer_apply), then the product is read
  as the sum over the contracted channel (v4_rows). The first layer of the program is that generic layer
  on the inputs; the second layer recomputes every quantity that depends only on the edge list, by the
  same operations on the same operands, so it is the same generic layer on the first layer's result.
-/
import proofs.«155647_j65274912964675_2_alg».proof.Proof.Gen.ReferenceIdeal.Read
import proofs.«155647_j65274912964675_2_alg».proof.Proof.LibGcnLayer
import proofs.«155647_j65274912964675_2_alg».proof.Proof.LibSegment
import proofs.«155647_j65274912964675_2_alg».proof.Proof.LibRowsProduct
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Read Cert.Gcn Idealize.ShloMosaic Idealize.ShloMosaic.ValueIdx Idealize.ShloMosaic.Segment

/-- The degree coefficient of node n: the inverse square root of one plus the number of edges arriving at n. -/
def dinvR (ei : IVec S2x1600000 32) (n : Fin 100000) : EReal := val_main_v11 (F := Ideal) ei (ix1 n)

/-- The row edge e reads its features from: its source number, wrapped when negative, clamped into the node range. -/
def gsR (ei : IVec S2x1600000 32) (e : Fin 1600000) : Fin 100000 :=
  clampRow (by norm_num : 0 < 100000) (val_main_v17 (F := Ideal) ei) e

/-- The row edge e reads its second coefficient from: its destination number, wrapped and clamped the same way. -/
def gdR (ei : IVec S2x1600000 32) (e : Fin 1600000) : Fin 100000 :=
  clampRow (by norm_num : 0 < 100000) (val_main_v24 (F := Ideal) ei) e

/-- The edges whose raw destination number is node n. -/
def TR (ei : IVec S2x1600000 32) (n : Fin 100000) : Finset (Fin 1600000) :=
  Finset.univ.filter fun e => landRow 100000 (val_main_v7 (F := Ideal) ei) e = some n

/-- The zero word: what the sums start from and what the final maximum compares with. -/
def zw : EReal := Ideal.ofBits .f32 0x00000000#32

/-- The product hin · W at entry (m, j) is the sum over the contracted channel. -/
theorem v4_rows (hin : FVec Ideal S100000x128 .f32) (W : FVec Ideal S128x128 .f32) (m : Fin 100000) (j : Fin 128) :
    val_main_v4 (F := Ideal) hin W (ix2 m j) = ∑ k : Fin 128, hin (ix2 m k) * W (ix2 k j) := by
  rw [val_main_v4_apply]
  refine Finset.sum_congr rfl fun k _ => ?_
  have hl : lidx_main_v4 (ix2 m j) k = ix2 m k := by
    funext a
    match a with
    | ⟨0, _⟩ => rfl
    | ⟨1, _⟩ => rfl
  have hr : ridx_main_v4 (ix2 m j) k = ix2 k j := by
    funext a
    match a with
    | ⟨0, _⟩ => rfl
    | ⟨1, _⟩ => rfl
  rw [hl, hr]

/-- The coefficient of edge e, spread along the channels: dinv at its source row times dinv at its destination row. -/
theorem coef_apply (ei : IVec S2x1600000 32) (e : Fin 1600000) (j : Fin 128) :
    val_main_v35 (F := Ideal) ei (ix2 e j) = dinvR ei (gsR ei e) * dinvR ei (gdR ei e) := by
  have hi : idx_main_v34 (idx_main_v35 (ix2 e j)) = ix1 e := by
    funext a
    match a with
    | ⟨0, _⟩ => rfl
  have h18 : val_main_v18 (F := Ideal) ei (ix1 e) = dinvR ei (gsR ei e) :=
    gatherVec_apply (N := 100000) (E := 1600000) (by norm_num) _ (val_main_v11 (F := Ideal) ei) (val_main_v17 (F := Ideal) ei) e
  have h25 : val_main_v25 (F := Ideal) ei (ix1 e) = dinvR ei (gdR ei e) :=
    gatherVec_apply (N := 100000) (E := 1600000) (by norm_num) _ (val_main_v11 (F := Ideal) ei) (val_main_v24 (F := Ideal) ei) e
  rw [val_main_v35_apply, val_main_v34_apply, hi, val_main_v26_apply, h18, h25]
  rfl

/-- The node's own coefficient, spread along the channels: dinv n · dinv n. -/
theorem self_apply (ei : IVec S2x1600000 32) (n : Fin 100000) (j : Fin 128) :
    val_main_v42 (F := Ideal) ei (ix2 n j) = dinvR ei n * dinvR ei n := by
  have hi : idx_main_v41 (idx_main_v42 (ix2 n j)) = ix1 n := by
    funext a
    match a with
    | ⟨0, _⟩ => rfl
  rw [val_main_v42_apply, val_main_v41_apply, hi, val_main_v40_apply]
  rfl

/-- The bias, spread along the rows: entry j of b. -/
theorem bias_apply (b : FVec Ideal S128 .f32) (n : Fin 100000) (j : Fin 128) :
    val_main_v46 (F := Ideal) b (ix2 n j) = b (ix1 j) := by
  have hi : idx_main_v45 (idx_main_v46 (ix2 n j)) = ix1 j := by
    funext a
    match a with
    | ⟨0, _⟩ => rfl
  rw [val_main_v46_apply, val_main_v45_apply, hi]

/-- The array the sums start from holds the zero word everywhere. -/
theorem start_apply (i : S100000x128.Idx) : val_main_v37 (F := Ideal) i = zw := by
  rw [val_main_v37_apply, val_main_cst_7_apply]
  rfl

/-- The array the final maximum compares with holds the zero word everywhere. -/
theorem floor_apply (i : S100000x128.Idx) : val_main_call0_v0 (F := Ideal) i = zw := by
  rw [val_main_call0_v0_apply, val_main_call0_cst_apply]
  rfl

/-- One layer of the reference, as the program's operations on an arbitrary product h: the rows of h named by
    the source column, times the edge coefficients, added up by raw destination number from the zero array;
    plus h times the nodes' own coefficients; plus the bias; maximum with the zero array. -/
def refLayer (h : FVec Ideal S100000x128 .f32) (ei : IVec S2x1600000 32) (b : FVec Ideal S128 .f32) :
    FVec Ideal S100000x128 .f32 :=
  maximumf
    (addf
      (addf
        (Host.scatterAdd scatter_S100000x128_S1600000x1_S1600000x128_1_0_0_1 (val_main_v37 (F := Ideal))
          (val_main_v7 (F := Ideal) ei)
          (mulf (Host.gather gather_S100000x128_S1600000x1_S1600000x128_1_0_n_n_0_1_1128 h (val_main_v17 (F := Ideal) ei))
            (val_main_v35 (F := Ideal) ei)))
        (mulf h (val_main_v42 (F := Ideal) ei)))
      (val_main_v46 (F := Ideal) b))
    (val_main_call0_v0 (F := Ideal))

/-- The message of edge e at channel j: the product's row gs e times the edge's coefficient. -/
theorem msg_apply (h : FVec Ideal S100000x128 .f32) (ei : IVec S2x1600000 32) (e : Fin 1600000) (j : Fin 128) :
    mulf (Host.gather gather_S100000x128_S1600000x1_S1600000x128_1_0_n_n_0_1_1128 h (val_main_v17 (F := Ideal) ei))
        (val_main_v35 (F := Ideal) ei) (ix2 e j)
      = h (ix2 (gsR ei e) j) * (dinvR ei (gsR ei e) * dinvR ei (gdR ei e)) := by
  have hg : Host.gather gather_S100000x128_S1600000x1_S1600000x128_1_0_n_n_0_1_1128 h (val_main_v17 (F := Ideal) ei) (ix2 e j)
      = h (ix2 (gsR ei e) j) :=
    gatherRows_apply (N := 100000) (E := 1600000) (C := 128) (by norm_num) _ h (val_main_v17 (F := Ideal) ei) e j
  rw [mulf_apply, hg, coef_apply]

/-- The generic layer at entry (n, j). -/
theorem refLayer_apply (h : FVec Ideal S100000x128 .f32) (ei : IVec S2x1600000 32) (b : FVec Ideal S128 .f32)
    (n : Fin 100000) (j : Fin 128) :
    refLayer h ei b (ix2 n j)
      = max (((zw + ∑ e ∈ TR ei n, h (ix2 (gsR ei e) j) * (dinvR ei (gsR ei e) * dinvR ei (gdR ei e)))
              + h (ix2 n j) * (dinvR ei n * dinvR ei n)) + b (ix1 j)) zw := by
  unfold refLayer
  rw [maximumf_apply, addf_apply, addf_apply, mulf_apply, floor_apply, bias_apply, self_apply]
  have hs : Host.scatterAdd scatter_S100000x128_S1600000x1_S1600000x128_1_0_0_1 (val_main_v37 (F := Ideal))
        (val_main_v7 (F := Ideal) ei)
        (mulf (Host.gather gather_S100000x128_S1600000x1_S1600000x128_1_0_n_n_0_1_1128 h (val_main_v17 (F := Ideal) ei))
          (val_main_v35 (F := Ideal) ei)) (ix2 n j)
      = zw + ∑ e ∈ TR ei n, h (ix2 (gsR ei e) j) * (dinvR ei (gsR ei e) * dinvR ei (gdR ei e)) := by
    refine (scatterAddRows_apply (N := 100000) (E := 1600000) (C := 128) _ (val_main_v37 (F := Ideal))
      (val_main_v7 (F := Ideal) ei) _ n j).trans ?_
    rw [start_apply]
    refine congrArg (zw + ·) (Finset.sum_congr rfl fun e _ => ?_)
    exact msg_apply h ei e j
  rw [hs]

/-- The generic layer on the product hin · W is the layer of the specification on hin, W and b. -/
theorem refLayer_lin (hin : FVec Ideal S100000x128 .f32) (ei : IVec S2x1600000 32) (W : FVec Ideal S128x128 .f32)
    (b : FVec Ideal S128 .f32) (n : Fin 100000) (j : Fin 128) :
    refLayer (val_main_v4 (F := Ideal) hin W) ei b (ix2 n j)
      = layerR (dinvR ei) (gsR ei) (gdR ei) (TR ei) zw zw (fun n k => hin (ix2 n k)) (fun k j => W (ix2 k j))
          (fun j => b (ix1 j)) n j := by
  rw [refLayer_apply]
  simp only [v4_rows]
  rfl

/-- The first layer of the program is the generic layer on the product x · W1. -/
theorem v48_eq (x : FVec Ideal S100000x128 .f32) (ei : IVec S2x1600000 32) (W1 : FVec Ideal S128x128 .f32)
    (b1 : FVec Ideal S128 .f32) :
    val_main_v48 (F := Ideal) x ei W1 b1 = refLayer (val_main_v4 (F := Ideal) x W1) ei b1 := rfl

/-- The second layer of the program recomputes the coefficients and the row numbers from the edge list by the
    same operations, so it is the generic layer on the product of the first layer's result with W2. -/
theorem v93_eq (x : FVec Ideal S100000x128 .f32) (ei : IVec S2x1600000 32) (W1 : FVec Ideal S128x128 .f32)
    (b1 : FVec Ideal S128 .f32) (W2 : FVec Ideal S128x128 .f32) (b2 : FVec Ideal S128 .f32) :
    val_main_v93 (F := Ideal) x ei W1 b1 W2 b2
      = refLayer (val_main_v4 (F := Ideal) (val_main_v48 (F := Ideal) x ei W1 b1) W2) ei b2 := rfl

/-- The first layer's result at entry (n, j). -/
theorem layer1_value (x : FVec Ideal S100000x128 .f32) (ei : IVec S2x1600000 32) (W1 : FVec Ideal S128x128 .f32)
    (b1 : FVec Ideal S128 .f32) (n : Fin 100000) (j : Fin 128) :
    val_main_v48 (F := Ideal) x ei W1 b1 (ix2 n j)
      = layerR (dinvR ei) (gsR ei) (gdR ei) (TR ei) zw zw (fun n k => x (ix2 n k)) (fun k j => W1 (ix2 k j))
          (fun j => b1 (ix1 j)) n j := by
  rw [v48_eq]
  exact refLayer_lin x ei W1 b1 n j

/-- The reference's result at entry (n, j): the layer of the specification applied twice. -/
theorem ref_value (x : FVec Ideal S100000x128 .f32) (ei : IVec S2x1600000 32) (W1 : FVec Ideal S128x128 .f32)
    (b1 : FVec Ideal S128 .f32) (W2 : FVec Ideal S128x128 .f32) (b2 : FVec Ideal S128 .f32)
    (n : Fin 100000) (j : Fin 128) :
    val_main_v93 (F := Ideal) x ei W1 b1 W2 b2 (ix2 n j)
      = layerR (dinvR ei) (gsR ei) (gdR ei) (TR ei) zw zw
          (layerR (dinvR ei) (gsR ei) (gdR ei) (TR ei) zw zw (fun n k => x (ix2 n k)) (fun k j => W1 (ix2 k j))
            (fun j => b1 (ix1 j)))
          (fun k j => W2 (ix2 k j)) (fun j => b2 (ix1 j)) n j := by
  have h1 : (fun n k => val_main_v48 (F := Ideal) x ei W1 b1 (ix2 n k))
      = layerR (dinvR ei) (gsR ei) (gdR ei) (TR ei) zw zw (fun n k => x (ix2 n k)) (fun k j => W1 (ix2 k j))
          (fun j => b1 (ix1 j)) :=
    funext fun n => funext fun k => layer1_value x ei W1 b1 n k
  rw [v93_eq, refLayer_lin, h1]

end Cert.ReferenceIdeal.RefValue

end
-- ==== Proof.KShared.lean ====
/-
  The three host-side pieces the kernel program feeds its regions, read at an index.

    * The aggregation: the rows of an array s named by the wrapped source column of the edge list, added up by raw
      destination number into an array of zero words. At (n, j) it is the zero word plus the sum, over the edges whose
      raw destination number is n, of s at the edge's source row, channel j.
    * The coefficient column: the vector of inverse square roots of the degrees viewed as a 100000 × 1 column; at
      (n, 0) it is the coefficient of node n.
    * A bias vector viewed as a 1 × 128 row; at (0, k) it is entry k.

  The edge list's columns and the coefficient vector are the same operations on the same operand in the kernel program
  and in the reference, so they are named here by the reference's stages.
-/
import proofs.«155647_j65274912964675_2_alg».proof.Proof.Gen.KernelIdeal
import proofs.«155647_j65274912964675_2_alg».proof.Proof.RefValue
import proofs.«155647_j65274912964675_2_alg».proof.Proof.LibSegment
import proofs.«155647_j65274912964675_2_alg».proof.Proof.LibVecRead
import proofs.«155647_j65274912964675_2_alg».proof.Proof.KPay
import Idealize.ShloMosaic.Lib.ValueIdx
import Idealize.ShloMosaic.Lib.Pipeline.Value

noncomputable section

open scoped BigOperators

namespace Cert.KernelIdeal.Hand

open Cert.KernelIdeal Cert.KernelIdeal.Gen Idealize.ShloMosaic Idealize.ShloMosaic.ValueIdx Idealize.ShloMosaic.Segment
open Cert.ReferenceIdeal.RefValue (dinvR gsR TR)

/-- The rows of `s` named by the wrapped source column, added up by raw destination number from zero words. -/
def aggOf (ei : IVec S2x1600000 32) (s : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (Cert.ReferenceIdeal.Read.val_main_v7 (F := Ideal) ei)
    (Host.gather gather_S100000x128_S1600000x1_S1600000x128_1_0_n_n_0_1_1128 s (Cert.ReferenceIdeal.Read.val_main_v17 (F := Ideal) ei))

theorem aggOf_apply (ei : IVec S2x1600000 32) (s : FVec Ideal S100000x128 .f32) (n : Fin 100000) (j : Fin 128) :
    aggOf ei s (ix2 n j) = zw + ∑ e ∈ TR ei n, s (ix2 (gsR ei e) j) := by
  unfold aggOf
  refine (scatterAddRows_apply (N := 100000) (E := 1600000) (C := 128) _ _
    (Cert.ReferenceIdeal.Read.val_main_v7 (F := Ideal) ei) _ n j).trans ?_
  refine congrArg₂ (· + ·) ?_ (Finset.sum_congr rfl fun e _ => ?_)
  · exact broadcastInDim_apply _ bcast_S_S100000x128 _ (ix2 n j) ValueIdx.ix0 (fun a => a.elim0)
  · exact gatherRows_apply (N := 100000) (E := 1600000) (C := 128) (by norm_num) _ s
      (Cert.ReferenceIdeal.Read.val_main_v17 (F := Ideal) ei) e j

/-- The coefficient vector as a column. -/
def dcol (ei : IVec S2x1600000 32) : FVec Ideal S100000x1 .f32 :=
  shapeCast S100000x1 (Cert.ReferenceIdeal.Read.val_main_v11 (F := Ideal) ei) shapeCasts_S100000_S100000x1

theorem dcol_apply (ei : IVec S2x1600000 32) (n : Fin 100000) : dcol ei (ix2 n (0 : Fin 1)) = dinvR ei n :=
  Cert.VecRead.shapeCast_col_apply (a := 100000) _ shapeCasts_S100000_S100000x1 n 0

/-- A bias vector as a row. -/
def brow (b : FVec Ideal S128 .f32) : FVec Ideal S1x128 .f32 := shapeCast S1x128 b shapeCasts_S128_S1x128

theorem brow_apply (b : FVec Ideal S128 .f32) (k : Fin 128) : brow b (ix2 (0 : Fin 1) k) = b (ix1 k) :=
  shapeCast_apply b shapeCasts_S128_S1x128 _ _ (by
    rw [Shape.rowMajor_val_one, Shape.rowMajor_val_two]
    show k.val = 0 * 128 + k.val
    omega)

end Cert.KernelIdeal.Hand

end
-- ==== Proof.KHostA.lean ====
/-
  The buffer contents of the kernel program up to the entry of its second region.

  The generated frame follows the contents through the program as a fold: after the first stretch of host operations,
  after the first region's write-backs, after the second stretch. Here the buffers the later steps read are named at
  each level as functions of the launch memory:
    * after the first stretch the coefficient column is the inverse square roots of the degrees as a column, the source
      and destination vectors are the two rows of the edge list, and the arguments are as launched;
    * after the first region its output holds the rows of x · W1 scaled by the coefficients, and every other buffer
      is as before;
    * after the second stretch the aggregate is the edge sum of those scaled rows, the first bias is a row, and the
      buffers the second region also reads are unchanged.
-/
import proofs.«155647_j65274912964675_2_alg».proof.Proof.Gen.KernelIdeal.Frame
import proofs.«155647_j65274912964675_2_alg».proof.Proof.KRegion0
import proofs.«155647_j65274912964675_2_alg».proof.Proof.KShared
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first stretch -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results

/-- The coefficient column. -/
theorem W1_v11 (c : Dev nD) :
    (W1 m ρ c (Proc.devRef .tc main_v11) : S100000x1.Idx → EReal) = dcol (m ((c : Thread nD τ).loc main_arg1)) := by
  show StableHlo.after hostOps0 (W0 m ρ c) (Proc.devRef .tc main_v11) = _
  after_results
  rfl

/-- The source vector: the first row of the edge list. -/
theorem W1_v1 (c : Dev nD) :
    (W1 m ρ c (Proc.devRef .tc main_v1) : S1600000.Idx → BitVec 32)
      = Cert.ReferenceIdeal.Read.val_main_v1 (F := Ideal) (m ((c : Thread nD τ).loc main_arg1)) := by
  show StableHlo.after hostOps0 (W0 m ρ c) (Proc.devRef .tc main_v1) = _
  after_results
  rfl

/-- The destination vector: the second row of the edge list. -/
theorem W1_v3 (c : Dev nD) :
    (W1 m ρ c (Proc.devRef .tc main_v3) : S1600000.Idx → BitVec 32)
      = Cert.ReferenceIdeal.Read.val_main_v3 (F := Ideal) (m ((c : Thread nD τ).loc main_arg1)) := by
  show StableHlo.after hostOps0 (W0 m ρ c) (Proc.devRef .tc main_v3) = _
  after_results
  rfl

/-! ## After the first region -/

/-- The rows of x · W1 scaled by the coefficients. -/
def scaled1 (c : Dev nD) : S100000x128.Idx → EReal :=
  scaledProduct (m ((c : Thread nD τ).loc main_arg0)) (m ((c : Thread nD τ).loc main_arg2)) (dcol (m ((c : Thread nD τ).loc main_arg1)))

theorem W2_v12 (c : Dev nD) : W2 m ρ c (Proc.devRef .tc main_v12) = scaled1 m c := by
  refine (W2_arr m ρ c 3).trans ((final0 (V1 m ρ) c).trans ?_)
  show scaledProduct (W1 m ρ c (Proc.devRef .tc main_arg0)) (W1 m ρ c (Proc.devRef .tc main_arg2)) (W1 m ρ c (Proc.devRef .tc main_v11)) = _
  rw [W1_arg0, W1_arg2, W1_v11]
  rfl

theorem W2_v11 (c : Dev nD) : W2 m ρ c (Proc.devRef .tc main_v11) = dcol (m ((c : Thread nD τ).loc main_arg1)) :=
  (W2_arr m ρ c 2).trans (((dat0 (V1 m ρ) c).arrAt_in 2 rfl _).trans ((A_eq0 (V1 m ρ) c 2).trans (W1_v11 m ρ c)))

theorem W2_v1 (c : Dev nD) : W2 m ρ c (Proc.devRef .tc main_v1)
    = Cert.ReferenceIdeal.Read.val_main_v1 (F := Ideal) (m ((c : Thread nD τ).loc main_arg1)) :=
  (W2_of_ne m ρ c main_v1 (by decide)).trans (W1_v1 m ρ c)
theorem W2_v3 (c : Dev nD) : W2 m ρ c (Proc.devRef .tc main_v3)
    = Cert.ReferenceIdeal.Read.val_main_v3 (F := Ideal) (m ((c : Thread nD τ).loc main_arg1)) :=
  (W2_of_ne m ρ c main_v3 (by decide)).trans (W1_v3 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-! ## After the second stretch -/

theorem W3_v22 (c : Dev nD) :
    (W3 m ρ c (Proc.devRef .tc main_v22) : S100000x128.Idx → EReal) = aggOf (m ((c : Thread nD τ).loc main_arg1)) (scaled1 m c) := by
  show StableHlo.after hostOps1 (W2 m ρ c) (Proc.devRef .tc main_v22) = _
  after_results
  rw [W2_v1, W2_v3, W2_v12]
  rfl

theorem W3_v23 (c : Dev nD) :
    (W3 m ρ c (Proc.devRef .tc main_v23) : S1x128.Idx → EReal) = brow (m ((c : Thread nD τ).loc main_arg3)) := by
  show StableHlo.after hostOps1 (W2 m ρ c) (Proc.devRef .tc main_v23) = _
  after_results
  rw [W2_arg3]
  rfl

theorem W3_v12 (c : Dev nD) : W3 m ρ c (Proc.devRef .tc main_v12) = scaled1 m c := by
  refine Eq.trans ?_ (W2_v12 m ρ c)
  show StableHlo.after hostOps1 (W2 m ρ c) (Proc.devRef .tc main_v12) = _
  after_results
theorem W3_v11 (c : Dev nD) : W3 m ρ c (Proc.devRef .tc main_v11) = dcol (m ((c : Thread nD τ).loc main_arg1)) := by
  refine Eq.trans ?_ (W2_v11 m ρ c)
  show StableHlo.after hostOps1 (W2 m ρ c) (Proc.devRef .tc main_v11) = _
  after_results
theorem W3_arg4 (c : Dev nD) : W3 m ρ c (Proc.devRef .tc main_arg4) = m ((c : Thread nD τ).loc main_arg4) := by
  refine Eq.trans ?_ (W2_arg4 m ρ c)
  show StableHlo.after hostOps1 (W2 m ρ c) (Proc.devRef .tc main_arg4) = _
  after_results
theorem W3_arg5 (c : Dev nD) : W3 m ρ c (Proc.devRef .tc main_arg5) = m ((c : Thread nD τ).loc main_arg5) := by
  refine Eq.trans ?_ (W2_arg5 m ρ c)
  show StableHlo.after hostOps1 (W2 m ρ c) (Proc.devRef .tc main_arg5) = _
  after_results
theorem W3_v1 (c : Dev nD) : W3 m ρ c (Proc.devRef .tc main_v1)
    = Cert.ReferenceIdeal.Read.val_main_v1 (F := Ideal) (m ((c : Thread nD τ).loc main_arg1)) := by
  refine Eq.trans ?_ (W2_v1 m ρ c)
  show StableHlo.after hostOps1 (W2 m ρ c) (Proc.devRef .tc main_v1) = _
  after_results
theorem W3_v3 (c : Dev nD) : W3 m ρ c (Proc.devRef .tc main_v3)
    = Cert.ReferenceIdeal.Read.val_main_v3 (F := Ideal) (m ((c : Thread nD τ).loc main_arg1)) := by
  refine Eq.trans ?_ (W2_v3 m ρ c)
  show StableHlo.after hostOps1 (W2 m ρ c) (Proc.devRef .tc main_v3) = _
  after_results

end Cert.KernelIdeal.Hand

end
-- ==== Proof.KAct.lean ====
/-
  The activation the second and third regions form, on whole arrays, and the two functions of the whole arrays
  those regions leave in their output arrays.

  From the aggregated rows g, the scaled rows s, the coefficient column d and the bias row b, the activation at
  row n, channel k is max (d (n) · (g (n, k) + s (n, k)) + b (k)) 0: the sum of the gathered and the own scaled
  rows, scaled once more by the row's coefficient, plus the bias, floored at the zero word. The second region
  stores its product with the weights scaled by the row's coefficient, (Σ_k a (n, k) · w (k, v)) · d (n); the
  third stores the activation itself.
-/
import proofs.«155647_j65274912964675_2_alg».proof.Proof.KPay
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.ValueIdx

/-- The activation on whole arrays: row n, channel k. -/
def actOf (b : FVec Ideal S1x128 .f32) (d : FVec Ideal S100000x1 .f32) (g s : FVec Ideal S100000x128 .f32)
    (n : Fin 100000) (k : Fin 128) : EReal :=
  max (d (ix2 n (0 : Fin 1)) * (g (ix2 n k) + s (ix2 n k)) + b (ix2 (0 : Fin 1) k)) zw

/-- A block's activation at (p, k) is the arrays' at (n, k) when the block's row p holds the arrays' row n and the
    bias row is the whole bias row. -/
theorem act_eq_actOf (x3 : FVec Ideal S1x128 .f32) (x2 : FVec Ideal S5000x1 .f32) (x0 x1 : FVec Ideal S5000x128 .f32)
    (B : FVec Ideal S1x128 .f32) (D : FVec Ideal S100000x1 .f32) (G S : FVec Ideal S100000x128 .f32)
    (p : Fin 5000) (n : Fin 100000) (k : Fin 128)
    (h0 : x0 (ix2 p k) = G (ix2 n k)) (h1 : x1 (ix2 p k) = S (ix2 n k))
    (h2 : x2 (ix2 p (0 : Fin 1)) = D (ix2 n (0 : Fin 1))) (h3 : x3 (ix2 (0 : Fin 1) k) = B (ix2 (0 : Fin 1) k)) :
    act x3 x2 x0 x1 p k = actOf B D G S n k := by
  unfold act actOf
  rw [h0, h1, h2, h3]

/-- The activation times the weights, rows scaled by the coefficient column: entry (n, v) is
    (Σ_k a (n, k) · w (k, v)) · d (n). -/
def fusedLayer (g s : FVec Ideal S100000x128 .f32) (d : FVec Ideal S100000x1 .f32) (b : FVec Ideal S1x128 .f32)
    (w : FVec Ideal S128x128 .f32) : S100000x128.Idx → EReal :=
  fun i => (∑ k : Fin 128, actOf b d g s (i 0) k * w (ix2 (n0 := 128) (n1 := 128) k (i 1)))
    * d (ix2 (n0 := 100000) (n1 := 1) (i 0) (0 : Fin 1))

/-- The function at explicit coordinates. -/
theorem fusedLayer_apply (g s : FVec Ideal S100000x128 .f32) (d : FVec Ideal S100000x1 .f32) (b : FVec Ideal S1x128 .f32)
    (w : FVec Ideal S128x128 .f32) (n : Fin 100000) (v : Fin 128) :
    fusedLayer g s d b w (ix2 n v) = (∑ k : Fin 128, actOf b d g s n k * w (ix2 k v)) * d (ix2 n (0 : Fin 1)) := rfl

/-- The activation as an array: entry (n, v). -/
def epilogue (g s : FVec Ideal S100000x128 .f32) (d : FVec Ideal S100000x1 .f32) (b : FVec Ideal S1x128 .f32) :
    S100000x128.Idx → EReal :=
  fun i => actOf b d g s (i 0) (i 1)

/-- The function at explicit coordinates. -/
theorem epilogue_apply (g s : FVec Ideal S100000x128 .f32) (d : FVec Ideal S100000x1 .f32) (b : FVec Ideal S1x128 .f32)
    (n : Fin 100000) (v : Fin 128) :
    epilogue g s d b (ix2 n v) = actOf b d g s n v := rfl

end Cert.KernelIdeal.Hand

end
-- ==== Proof.KRegion1.lean ====
/-
  The second region, as one function of the arrays it finds.

  The region walks 20 blocks of 5000 rows. At each it loads the block of the aggregated rows, the block of the
  scaled rows, the block of the coefficient column, the whole bias row and the whole weights, forms the
  activation of the block, and writes back its product with the weights scaled row by row. Block t of every
  blocked array starts at row 5000 · t, and the bias row's and the weights' only block is the whole array, so
  what point t writes back is block t of ONE function of the whole arrays: row n, channel v holds
  (Σ_k a (n, k) · w (k, v)) · d (n), where a (n, k) = max (d (n) · (g (n, k) + s (n, k)) + b (k)) 0 depends on
  row n of the aggregated and the scaled arrays only. The 20 blocks cover the rows, so the output array ends
  holding that function.
-/
import proofs.«155647_j65274912964675_2_alg».proof.Proof.Gen.KernelIdeal.Frame
import proofs.«155647_j65274912964675_2_alg».proof.Proof.KPay
import proofs.«155647_j65274912964675_2_alg».proof.Proof.KAct
import proofs.«155647_j65274912964675_2_alg».proof.Proof.KRegion0
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The body's stored value at an entry of its block is the function at the entry's place in the arrays, when the
    loaded blocks hold the arrays' entries there: row p of the three blocked loads is row n of their arrays, the
    bias block is the bias row, and column u of the weights block is column v of the weights. -/
theorem block1 (x0 x1 : Vec Ideal S5000x128 .f32) (x2 : Vec Ideal S5000x1 .f32) (x3 : Vec Ideal S1x128 .f32)
    (x4 : Vec Ideal S128x128 .f32)
    (G S : FVec Ideal S100000x128 .f32) (D : FVec Ideal S100000x1 .f32) (B : FVec Ideal S1x128 .f32)
    (Wt : FVec Ideal S128x128 .f32)
    (p : Fin 5000) (u : Fin 128) (n : Fin 100000) (v : Fin 128)
    (h0 : ∀ k : Fin 128, x0 (ix2 p k) = G (ix2 n k))
    (h1 : ∀ k : Fin 128, x1 (ix2 p k) = S (ix2 n k))
    (h2 : x2 (ix2 p (0 : Fin 1)) = D (ix2 n (0 : Fin 1)))
    (h3 : ∀ k : Fin 128, x3 (ix2 (0 : Fin 1) k) = B (ix2 (0 : Fin 1) k))
    (h4 : ∀ k : Fin 128, x4 (ix2 k u) = Wt (ix2 k v)) :
    k1_pay1 (F := Ideal) x3 x2 x0 x1 x4 (ix2 p u) = fusedLayer G S D B Wt (ix2 n v) := by
  rw [pay1_apply, fusedLayer_apply, h2]
  refine congrArg (· * D (ix2 n (0 : Fin 1))) (Finset.sum_congr rfl fun k _ => ?_)
  rw [h4, act_eq_actOf x3 x2 x0 x1 B D G S p n k (h0 k) (h1 k) h2 (h3 k)]

/-- The printed index maps over the grid: the blocked windows move together along the rows, the other coordinates
    stay at block 0. -/
theorem idx_facts1 : ∀ t : Fin cfg1.N, win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 :=
  (by decide +kernel : ∀ t : Fin grid1.N, _)

/-- Every block of rows is some point's. -/
theorem idx_onto1 : ∀ q : Fin 20, ∃ t : Fin cfg1.N, win1_5.index t = ![q.val, 0] :=
  (by decide +kernel : ∀ q : Fin 20, ∃ t : Fin grid1.N, win1_5.index t = ![q.val, 0])

/-- What point `t` writes back is block `t` of the function of the arrays as the region finds them. -/
theorem flushed1 (c : Dev nD) (t : Fin cfg1.N) :
    (dat1 (F := Ideal) V c).flushed 5 t
      = ((cfg1.win 5).blk t).view.read (Elt Ideal)
          (fusedLayer (V c main_v22) (V c main_v12) (V c main_v11) (V c main_v23) (V c main_arg4)) := by
  show (cfg1.win 5).cut (grid1.coords t) ((dat1 V c).after 5 t) = _
  rw [after1_5]
  unfold out1_5
  rw [View.canon_unit_zero origin2]
  simp only [View.ld_unit_zero (S := S5000x128) origin2, View.ld_unit_zero (S := S128x128) origin2,
    View.ld_unit_zero (S := S5000x1) origin2, View.ld_unit_zero (S := S1x128) origin2]
  obtain ⟨e0, e1, e2, e3, e4, e5, e6, e7, e8, e9, e10⟩ := idx_facts1 t
  funext j
  have hj : j = ix2 (n0 := 5000) (n1 := 128) (j 0) (j 1) := eq_ix2 j
  have hi : ((cfg1.win 5).blk t).view.emb j
      = ix2 (n0 := 100000) (n1 := 128) (((cfg1.win 5).blk t).view.emb j 0) (((cfg1.win 5).blk t).view.emb j 1) := eq_ix2 _
  refine (congrArg (k1_pay1 (F := Ideal) _ _ _ _ _) hj).trans
    ((block1 _ _ _ _ _ _ _ _ _ _ (j 0) (j 1) _ _ (fun k => ?_) (fun k => ?_) ?_ (fun k => ?_) (fun k => ?_)).trans
      (congrArg (fusedLayer _ _ _ _ _) hi.symm))
  · show V c main_v22 (((cfg1.win 0).blk t).view.emb (ix2 (n0 := 5000) (n1 := 128) (j 0) k)) = V c main_v22 _
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · show V c main_v12 (((cfg1.win 1).blk t).view.emb (ix2 (n0 := 5000) (n1 := 128) (j 0) k)) = V c main_v12 _
    refine congrArg _ (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · show V c main_v11 (((cfg1.win 2).blk t).view.emb (ix2 (n0 := 5000) (n1 := 1) (j 0) (0 : Fin 1))) = V c main_v11 _
    refine congrArg _ (funext fun a => Fin.ext ?_)
    match a with
    | ⟨0, _⟩ => show win1_2.index t (0 : Fin 2) * 5000 + 1 * (j 0).val = win1_5.index t (0 : Fin 2) * 5000 + 1 * (j 0).val; omega
    | ⟨1, _⟩ => show win1_2.index t (1 : Fin 2) * 1 + 1 * 0 = 0; omega
  · show V c main_v23 (((cfg1.win 3).blk t).view.emb (ix2 (n0 := 1) (n1 := 128) (0 : Fin 1) k)) = V c main_v23 _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  · show V c main_arg4 (((cfg1.win 4).blk t).view.emb (ix2 (n0 := 128) (n1 := 128) k (j 1))) = V c main_arg4 _
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * (j 1).val = win1_5.index t (1 : Fin 2) * 128 + 1 * (j 1).val; omega

/-- An index of the output array is in point `t`'s block iff each coordinate is in the block's range. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v24).slice (win1_5.rect t)).set ↔ _
  rw [View.set_slice_whole, Rect.mem_set_unit]
  exact Iff.rfl

/-- The blocks cover the output array: row r lies in block r / 5000. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region is the function of the arrays as the region finds them. -/
theorem final1 (c : Dev nD) :
    (dat1 (F := Ideal) V c).arrAt 5 cfg1.N
      = fusedLayer (V c main_v22) (V c main_v12) (V c main_v11) (V c main_v23) (V c main_arg4) :=
  (dat1 (F := Ideal) V c).arrAt_eq_of_cover 5 _ (fun t _ => flushed1 V c t) cover1

end Cert.KernelIdeal.Hand

end
-- ==== Proof.KRegion2.lean ====
/-
  The third region, as one function of the arrays it finds.

  The region walks 20 blocks of 5000 rows. At each it loads the block of the aggregated rows, the block of the
  scaled rows, the block of the coefficient column and the whole bias row, and writes back the activation of the
  block. Block t of every blocked array starts at row 5000 · t and the bias row's only block is the whole row,
  so what point t writes back is block t of ONE function of the whole arrays: row n, channel v holds
  max (d (n) · (g (n, v) + s (n, v)) + b (v)) 0, which depends on entry (n, v) of the aggregated and the scaled
  arrays, entry n of the coefficient column and entry v of the bias row only. The 20 blocks cover the rows, so
  the output array ends holding that function.
-/
import proofs.«155647_j65274912964675_2_alg».proof.Proof.Gen.KernelIdeal.Frame
import proofs.«155647_j65274912964675_2_alg».proof.Proof.KPay
import proofs.«155647_j65274912964675_2_alg».proof.Proof.KAct
import proofs.«155647_j65274912964675_2_alg».proof.Proof.KRegion0
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The body's stored value at an entry of its block is the function at the entry's place in the arrays, when the
    loaded blocks hold the arrays' entries there: entry (p, u) of the two blocked loads is entry (n, v) of their
    arrays, row p of the coefficient block is row n of the column, and entry u of the bias block is entry v of
    the bias row. -/
theorem block2 (x0 x1 : Vec Ideal S5000x128 .f32) (x2 : Vec Ideal S5000x1 .f32) (x3 : Vec Ideal S1x128 .f32)
    (G S : FVec Ideal S100000x128 .f32) (D : FVec Ideal S100000x1 .f32) (B : FVec Ideal S1x128 .f32)
    (p : Fin 5000) (u : Fin 128) (n : Fin 100000) (v : Fin 128)
    (h0 : x0 (ix2 p u) = G (ix2 n v))
    (h1 : x1 (ix2 p u) = S (ix2 n v))
    (h2 : x2 (ix2 p (0 : Fin 1)) = D (ix2 n (0 : Fin 1)))
    (h3 : x3 (ix2 (0 : Fin 1) u) = B (ix2 (0 : Fin 1) v)) :
    k2_pay1 (F := Ideal) x3 x2 x0 x1 (ix2 p u) = epilogue G S D B (ix2 n v) := by
  rw [pay2_apply, epilogue_apply]
  unfold act actOf
  rw [h0, h1, h2, h3]

/-- The printed index maps over the grid: the blocked windows move together along the rows, the other coordinates
    stay at block 0. -/
theorem idx_facts2 : ∀ t : Fin cfg2.N, win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = win2_4.index t (0 : Fin 2) ∧ win2_2.index t (1 : Fin 2) = 0
    ∧ win2_3.index t (0 : Fin 2) = 0 ∧ win2_3.index t (1 : Fin 2) = 0
    ∧ win2_4.index t (1 : Fin 2) = 0 :=
  (by decide +kernel : ∀ t : Fin grid2.N, _)

/-- Every block of rows is some point's. -/
theorem idx_onto2 : ∀ q : Fin 20, ∃ t : Fin cfg2.N, win2_4.index t = ![q.val, 0] :=
  (by decide +kernel : ∀ q : Fin 20, ∃ t : Fin grid2.N, win2_4.index t = ![q.val, 0])

/-- What point `t` writes back is block `t` of the function of the arrays as the region finds them. -/
theorem flushed2 (c : Dev nD) (t : Fin cfg2.N) :
    (dat2 (F := Ideal) V c).flushed 4 t
      = ((cfg2.win 4).blk t).view.read (Elt Ideal)
          (epilogue (V c main_v34) (V c main_v24) (V c main_v11) (V c main_v35)) := by
  show (cfg2.win 4).cut (grid2.coords t) ((dat2 V c).after 4 t) = _
  rw [after2_4]
  unfold out2_4
  rw [View.canon_unit_zero origin2]
  simp only [View.ld_unit_zero (S := S5000x128) origin2, View.ld_unit_zero (S := S5000x1) origin2,
    View.ld_unit_zero (S := S1x128) origin2]
  obtain ⟨e0, e1, e2, e3, e4, e5, e6, e7, e8⟩ := idx_facts2 t
  funext j
  have hj : j = ix2 (n0 := 5000) (n1 := 128) (j 0) (j 1) := eq_ix2 j
  have hi : ((cfg2.win 4).blk t).view.emb j
      = ix2 (n0 := 100000) (n1 := 128) (((cfg2.win 4).blk t).view.emb j 0) (((cfg2.win 4).blk t).view.emb j 1) := eq_ix2 _
  refine (congrArg (k2_pay1 (F := Ideal) _ _ _ _) hj).trans
    ((block2 _ _ _ _ _ _ _ _ (j 0) (j 1) _ _ ?_ ?_ ?_ ?_).trans
      (congrArg (epilogue _ _ _ _) hi.symm))
  · show V c main_v34 (((cfg2.win 0).blk t).view.emb (ix2 (n0 := 5000) (n1 := 128) (j 0) (j 1))) = V c main_v34 _
    refine congrArg _ (funext fun a => Fin.ext ?_)
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * (j 1).val = win2_4.index t (1 : Fin 2) * 128 + 1 * (j 1).val; omega
  · show V c main_v24 (((cfg2.win 1).blk t).view.emb (ix2 (n0 := 5000) (n1 := 128) (j 0) (j 1))) = V c main_v24 _
    refine congrArg _ (funext fun a => Fin.ext ?_)
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 128 + 1 * (j 1).val = win2_4.index t (1 : Fin 2) * 128 + 1 * (j 1).val; omega
  · show V c main_v11 (((cfg2.win 2).blk t).view.emb (ix2 (n0 := 5000) (n1 := 1) (j 0) (0 : Fin 1))) = V c main_v11 _
    refine congrArg _ (funext fun a => Fin.ext ?_)
    match a with
    | ⟨0, _⟩ => show win2_2.index t (0 : Fin 2) * 5000 + 1 * (j 0).val = win2_4.index t (0 : Fin 2) * 5000 + 1 * (j 0).val; omega
    | ⟨1, _⟩ => show win2_2.index t (1 : Fin 2) * 1 + 1 * 0 = 0; omega
  · show V c main_v35 (((cfg2.win 3).blk t).view.emb (ix2 (n0 := 1) (n1 := 128) (0 : Fin 1) (j 1))) = V c main_v35 _
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * (j 1).val = win2_4.index t (1 : Fin 2) * 128 + 1 * (j 1).val; omega

/-- An index of the output array is in point `t`'s block iff each coordinate is in the block's range. -/
theorem mem_blk2 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v36).slice (win2_4.rect t)).set ↔ _
  rw [View.set_slice_whole, Rect.mem_set_unit]
  exact Iff.rfl

/-- The blocks cover the output array: row r lies in block r / 5000. -/
theorem cover2 (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  obtain ⟨t, ht⟩ := idx_onto2 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The output array after the region is the function of the arrays as the region finds them. -/
theorem final2 (c : Dev nD) :
    (dat2 (F := Ideal) V c).arrAt 4 cfg2.N
      = epilogue (V c main_v34) (V c main_v24) (V c main_v11) (V c main_v35) :=
  (dat2 (F := Ideal) V c).arrAt_eq_of_cover 4 _ (fun t _ => flushed2 V c t) cover2

end Cert.KernelIdeal.Hand

end
-- ==== Proof.KHostB.lean ====
/-
  The buffer contents of the kernel program from its second region to its return.

  After the second region its output holds, row by row, the activation of the first layer multiplied by the second
  weights and scaled by the coefficients; the third stretch of host operations aggregates those rows over the edges and
  views the second bias as a row; the third region writes the second layer's activation into the result buffer. Every
  buffer is named as a function of the launch memory, so the result buffer after the run is one closed expression in
  the six argument arrays.
-/
import proofs.«155647_j65274912964675_2_alg».proof.Proof.KHostA
import proofs.«155647_j65274912964675_2_alg».proof.Proof.KRegion1
import proofs.«155647_j65274912964675_2_alg».proof.Proof.KRegion2

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## After the second region -/

/-- The first layer's activation times the second weights, rows scaled by the coefficients. -/
def scaled2 (c : Dev nD) : S100000x128.Idx → EReal :=
  fusedLayer (aggOf (m ((c : Thread nD τ).loc main_arg1)) (scaled1 m c)) (scaled1 m c) (dcol (m ((c : Thread nD τ).loc main_arg1)))
    (brow (m ((c : Thread nD τ).loc main_arg3))) (m ((c : Thread nD τ).loc main_arg4))

theorem W4_v24 (c : Dev nD) : W4 m ρ c (Proc.devRef .tc main_v24) = scaled2 m c := by
  refine (W4_arr m ρ c 5).trans ((final1 (V3 m ρ) c).trans ?_)
  show fusedLayer (W3 m ρ c (Proc.devRef .tc main_v22)) (W3 m ρ c (Proc.devRef .tc main_v12)) (W3 m ρ c (Proc.devRef .tc main_v11))
    (W3 m ρ c (Proc.devRef .tc main_v23)) (W3 m ρ c (Proc.devRef .tc main_arg4)) = _
  rw [W3_v22, W3_v12, W3_v11, W3_v23, W3_arg4]
  rfl

theorem W4_v11 (c : Dev nD) : W4 m ρ c (Proc.devRef .tc main_v11) = dcol (m ((c : Thread nD τ).loc main_arg1)) :=
  (W4_arr m ρ c 2).trans (((dat1 (V3 m ρ) c).arrAt_in 2 rfl _).trans ((A_eq1 (V3 m ρ) c 2).trans (W3_v11 m ρ c)))

theorem W4_v1 (c : Dev nD) : W4 m ρ c (Proc.devRef .tc main_v1)
    = Cert.ReferenceIdeal.Read.val_main_v1 (F := Ideal) (m ((c : Thread nD τ).loc main_arg1)) :=
  (W4_of_ne m ρ c main_v1 (by decide)).trans (W3_v1 m ρ c)
theorem W4_v3 (c : Dev nD) : W4 m ρ c (Proc.devRef .tc main_v3)
    = Cert.ReferenceIdeal.Read.val_main_v3 (F := Ideal) (m ((c : Thread nD τ).loc main_arg1)) :=
  (W4_of_ne m ρ c main_v3 (by decide)).trans (W3_v3 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ## After the third stretch -/

theorem W5_v34 (c : Dev nD) :
    (W5 m ρ c (Proc.devRef .tc main_v34) : S100000x128.Idx → EReal) = aggOf (m ((c : Thread nD τ).loc main_arg1)) (scaled2 m c) := by
  show StableHlo.after hostOps2 (W4 m ρ c) (Proc.devRef .tc main_v34) = _
  after_results
  rw [W4_v1, W4_v3, W4_v24]
  rfl

theorem W5_v35 (c : Dev nD) :
    (W5 m ρ c (Proc.devRef .tc main_v35) : S1x128.Idx → EReal) = brow (m ((c : Thread nD τ).loc main_arg5)) := by
  show StableHlo.after hostOps2 (W4 m ρ c) (Proc.devRef .tc main_v35) = _
  after_results
  rw [W4_arg5]
  rfl

theorem W5_v24 (c : Dev nD) : W5 m ρ c (Proc.devRef .tc main_v24) = scaled2 m c := by
  refine Eq.trans ?_ (W4_v24 m ρ c)
  show StableHlo.after hostOps2 (W4 m ρ c) (Proc.devRef .tc main_v24) = _
  after_results
theorem W5_v11 (c : Dev nD) : W5 m ρ c (Proc.devRef .tc main_v11) = dcol (m ((c : Thread nD τ).loc main_arg1)) := by
  refine Eq.trans ?_ (W4_v11 m ρ c)
  show StableHlo.after hostOps2 (W4 m ρ c) (Proc.devRef .tc main_v11) = _
  after_results

/-! ## After the third region: the result -/

/-- The result buffer after the run, as one expression in the argument arrays. -/
theorem W6_v36 (c : Dev nD) : W6 m ρ c (Proc.devRef .tc main_v36)
    = epilogue (aggOf (m ((c : Thread nD τ).loc main_arg1)) (scaled2 m c)) (scaled2 m c) (dcol (m ((c : Thread nD τ).loc main_arg1)))
        (brow (m ((c : Thread nD τ).loc main_arg5))) := by
  refine (W6_arr m ρ c 4).trans ((final2 (V5 m ρ) c).trans ?_)
  show epilogue (W5 m ρ c (Proc.devRef .tc main_v34)) (W5 m ρ c (Proc.devRef .tc main_v24)) (W5 m ρ c (Proc.devRef .tc main_v11))
    (W5 m ρ c (Proc.devRef .tc main_v35)) = _
  rw [W5_v34, W5_v24, W5_v11, W5_v35]

end Cert.KernelIdeal.Hand

end
-- ==== Proof.KValue.lean ====
/-
  The kernel's value as one function of the argument arrays, read at an entry.

  The kernel program is three regions fed by host-side pieces: the first region stores the product of the features with
  the first weights, every row scaled by its node's coefficient; the host adds up the rows of that array named by each
  edge's source, by destination; the second region takes that sum and the scaled array, forms the first layer's
  activation, multiplies it by the second weights and scales the rows again; the host adds up once more; the third region
  forms the second layer's activation. Composed, this is one function of the six arguments.

  Read at node `n`, channel `j`: the scaled product at `(n, k)` is `lin x W1 n k * dinv n`; the sum of its rows over the
  edges arriving at `n` is `zero + ∑_{e ∈ T n} lin x W1 (gs e) k * dinv (gs e)`; so the activation
  `max (dinv n * ((zero + ∑ …) + lin x W1 n k * dinv n) + b1 k) zero` is the row-scaled layer of the specification, term
  for term. The second region's array is then `lin (first layer) W2 n v * dinv n`, and the same reading gives the
  row-scaled layer of the first layer's values.
-/
import proofs.«155647_j65274912964675_2_alg».proof.Proof.LibGcnLayer
import proofs.«155647_j65274912964675_2_alg».proof.Proof.KAct
import proofs.«155647_j65274912964675_2_alg».proof.Proof.KRegion0
import proofs.«155647_j65274912964675_2_alg».proof.Proof.KShared

set_option maxRecDepth 16384

noncomputable section

open scoped BigOperators

namespace Cert.KernelIdeal.Hand

open Cert.KernelIdeal Cert.KernelIdeal.Gen Cert.Gcn Idealize.ShloMosaic Idealize.ShloMosaic.ValueIdx
open Cert.ReferenceIdeal.RefValue (dinvR gsR TR)

/-- The zero word under its two names. -/
theorem zw_eq : (zw : EReal) = Cert.ReferenceIdeal.RefValue.zw := rfl

/-- The activation of one layer, read from the arrays the kernel holds, is the row-scaled layer of the specification:
    when the array `s` holds `lin hin W n k * dinv n` at `(n, k)`, the sum of its rows over the arriving edges, plus its
    own row, scaled by `dinv n`, plus the bias, bounded below by zero, is `layerK` at `(n, k)`. -/
theorem actOf_eq_layerK (ei : IVec S2x1600000 32) (hin : Fin 100000 → Fin 128 → EReal) (W : Fin 128 → Fin 128 → EReal)
    (b : FVec Ideal S128 .f32) (s : FVec Ideal S100000x128 .f32)
    (hs : ∀ m k, s (ix2 m k) = lin hin W m k * dinvR ei m) (n : Fin 100000) (k : Fin 128) :
    actOf (brow b) (dcol ei) (aggOf ei s) s n k
      = layerK (dinvR ei) (gsR ei) (TR ei) Cert.ReferenceIdeal.RefValue.zw Cert.ReferenceIdeal.RefValue.zw hin W
          (fun j => b (ix1 j)) n k := by
  unfold actOf layerK
  rw [dcol_apply, aggOf_apply, brow_apply, hs n k, zw_eq]
  refine congrArg (fun t => max (dinvR ei n * ((Cert.ReferenceIdeal.RefValue.zw + t) + lin hin W n k * dinvR ei n) + b (ix1 k))
    Cert.ReferenceIdeal.RefValue.zw) ?_
  exact Finset.sum_congr rfl fun e _ => hs (gsR ei e) k

/-- The kernel's value: the three regions and the two host-side sums composed. -/
def kernelValue (x : FVec Ideal S100000x128 .f32) (ei : IVec S2x1600000 32) (W1 : FVec Ideal S128x128 .f32)
    (b1 : FVec Ideal S128 .f32) (W2 : FVec Ideal S128x128 .f32) (b2 : FVec Ideal S128 .f32) : S100000x128.Idx → EReal :=
  epilogue (aggOf ei (fusedLayer (aggOf ei (scaledProduct x W1 (dcol ei))) (scaledProduct x W1 (dcol ei)) (dcol ei) (brow b1) W2))
    (fusedLayer (aggOf ei (scaledProduct x W1 (dcol ei))) (scaledProduct x W1 (dcol ei)) (dcol ei) (brow b1) W2) (dcol ei) (brow b2)

/-- The kernel's value at node `n`, channel `j` is the row-scaled layer applied twice. -/
theorem kernelValue_apply (x : FVec Ideal S100000x128 .f32) (ei : IVec S2x1600000 32) (W1 : FVec Ideal S128x128 .f32)
    (b1 : FVec Ideal S128 .f32) (W2 : FVec Ideal S128x128 .f32) (b2 : FVec Ideal S128 .f32) (n : Fin 100000) (j : Fin 128) :
    kernelValue x ei W1 b1 W2 b2 (ix2 n j)
      = layerK (dinvR ei) (gsR ei) (TR ei) Cert.ReferenceIdeal.RefValue.zw Cert.ReferenceIdeal.RefValue.zw
          (layerK (dinvR ei) (gsR ei) (TR ei) Cert.ReferenceIdeal.RefValue.zw Cert.ReferenceIdeal.RefValue.zw
            (fun n k => x (ix2 n k)) (fun k j => W1 (ix2 k j)) (fun j => b1 (ix1 j)))
          (fun k j => W2 (ix2 k j)) (fun j => b2 (ix1 j)) n j := by
  -- the first region's array holds the scaled product
  have h1 : ∀ m k, scaledProduct x W1 (dcol ei) (ix2 m k)
      = lin (fun n k => x (ix2 n k)) (fun k j => W1 (ix2 k j)) m k * dinvR ei m := fun m k => by
    rw [scaledProduct_apply, dcol_apply]
    rfl
  -- the second region's array holds the scaled product of the first layer's values with the second weights
  have h2 : ∀ m v, fusedLayer (aggOf ei (scaledProduct x W1 (dcol ei))) (scaledProduct x W1 (dcol ei)) (dcol ei) (brow b1) W2 (ix2 m v)
      = lin (layerK (dinvR ei) (gsR ei) (TR ei) Cert.ReferenceIdeal.RefValue.zw Cert.ReferenceIdeal.RefValue.zw
            (fun n k => x (ix2 n k)) (fun k j => W1 (ix2 k j)) (fun j => b1 (ix1 j)))
          (fun k j => W2 (ix2 k j)) m v * dinvR ei m := fun m v => by
    rw [fusedLayer_apply, dcol_apply]
    refine congrArg (fun t => t * dinvR ei m) ?_
    unfold lin
    refine Finset.sum_congr rfl fun k _ => ?_
    refine congrArg (fun t => t * W2 (ix2 k v)) ?_
    exact actOf_eq_layerK ei _ _ b1 _ h1 m k
  unfold kernelValue
  rw [epilogue_apply]
  exact actOf_eq_layerK ei _ _ b2 _ h2 n j

end Cert.KernelIdeal.Hand

end
-- ==== Proof.LibRealSums.lean ====
/- Finite sums of extended reals that are real numbers.

   On the extended reals a product does not distribute over a sum in general (`⊤ + ⊥` is `⊥`, and a product with an
   infinite factor changes sign with the other). It does when every term is a real number: then every expression is
   the image of the same expression over `ℝ`, where the usual laws hold. This file has the predicate "is a real
   number", its closure under the operations used, and the law that exchanges a weighted sum with a sum over a finite
   set: multiplying each summand's row by the weights and then adding the rows equals adding the rows first and
   multiplying once. -/
import Idealize.ShloMosaic.PureOps.Ideal.Laws

noncomputable section

open scoped BigOperators

namespace Cert.RealSums

open Idealize.ShloMosaic

/-- An extended real that is (the image of) a real number: neither `⊤` nor `⊥`. -/
def IsReal (v : EReal) : Prop := ∃ r : ℝ, v = (r : EReal)

/-- The image of a real number is real. -/
theorem isReal_coe (r : ℝ) : IsReal (r : EReal) := ⟨r, rfl⟩

/-- Zero is real. -/
theorem isReal_zero : IsReal 0 := ⟨0, EReal.coe_zero.symm⟩

/-- A real extended real is the image of its real part. -/
theorem IsReal.coe_toReal {v : EReal} (h : IsReal v) : ((v.toReal : ℝ) : EReal) = v := by
  obtain ⟨r, rfl⟩ := h
  rw [EReal.toReal_coe]

/-- The sum of two reals is real. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two reals is real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- The larger of two reals is one of them, hence real. -/
theorem IsReal.max {a b : EReal} (ha : IsReal a) (hb : IsReal b) : IsReal (max a b) := by
  rcases le_total a b with h | h
  · rw [max_eq_right h]; exact hb
  · rw [max_eq_left h]; exact ha

/-- The image of a finite sum of real numbers is the sum of the images. -/
theorem coe_sum {ι : Type*} (T : Finset ι) (g : ι → ℝ) : ((∑ i ∈ T, g i : ℝ) : EReal) = ∑ i ∈ T, (g i : EReal) := by
  classical
  induction T using Finset.induction_on with
  | empty => rw [Finset.sum_empty, Finset.sum_empty, EReal.coe_zero]
  | insert a s ha ih => rw [Finset.sum_insert ha, Finset.sum_insert ha, EReal.coe_add, ih]

/-- A finite sum of reals is real. -/
theorem isReal_sum {ι : Type*} (T : Finset ι) (f : ι → EReal) (h : ∀ i ∈ T, IsReal (f i)) : IsReal (∑ i ∈ T, f i) := by
  classical
  induction T using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The single-precision word of all zero bits denotes zero, a real number. -/
theorem isReal_ofBits_zero : IsReal (Ideal.ofBits .f32 0x00000000#32) := by
  rw [Ideal.ofBits_zero_f32]
  exact isReal_zero

/-- The exchange law. For reals `f e k` (`e` in a finite set `T`) and real weights `w k`: the sum over `e ∈ T` of the
    weighted sums `∑ k, f e k * w k` equals the weighted sum of the column totals `∑ e ∈ T, f e k`. Both sides start
    from an initial value `z` that is zero (on the left once, on the right inside every column total). Each side is the
    image of the same expression over `ℝ`, where the law is the exchange of the two summations and distributivity. -/
theorem sum_mul_exchange {ι κ : Type*} [Fintype κ] (T : Finset ι) (f : ι → κ → EReal) (w : κ → EReal) (z : EReal)
    (hz : z = 0) (hf : ∀ e ∈ T, ∀ k, IsReal (f e k)) (hw : ∀ k, IsReal (w k)) :
    z + ∑ e ∈ T, ∑ k, f e k * w k = ∑ k, (z + ∑ e ∈ T, f e k) * w k := by
  subst hz
  -- the left side's inner sums, as images of sums over ℝ
  have hL : ∀ e ∈ T, ∑ k, f e k * w k = ((∑ k, (f e k).toReal * (w k).toReal : ℝ) : EReal) := fun e he => by
    rw [coe_sum]
    refine Finset.sum_congr rfl fun k _ => ?_
    rw [EReal.coe_mul, (hf e he k).coe_toReal, (hw k).coe_toReal]
  -- the right side's summands, as images of products over ℝ
  have hR : ∀ k ∈ (Finset.univ : Finset κ),
      (0 + ∑ e ∈ T, f e k) * w k = (((∑ e ∈ T, (f e k).toReal) * (w k).toReal : ℝ) : EReal) := fun k _ => by
    rw [zero_add, EReal.coe_mul, coe_sum, (hw k).coe_toReal]
    congr 1
    exact Finset.sum_congr rfl fun e he => ((hf e he k).coe_toReal).symm
  rw [zero_add, Finset.sum_congr rfl hL, ← coe_sum, Finset.sum_congr rfl hR, ← coe_sum]
  -- over ℝ: exchange the two summations, then distributivity in each column
  congr 1
  rw [Finset.sum_comm]
  exact Finset.sum_congr rfl fun k _ => (Finset.sum_mul T (fun e => (f e k).toReal) ((w k).toReal)).symm

end Cert.RealSums

end
-- ==== Proof.LibGcnLaw.lean ====
/-
  The two ways of writing one graph-convolution layer agree on real numbers.

  Three groups of facts about the two forms of one layer:

    * the single-precision word `0x3F800000` denotes the real number one;
    * finiteness: a product of real rows with real weights is real; the coefficient
      `1 / √(z + (number of arriving edges) · 1 + 1)` is real, because the argument of the
      inverse square root is the real number `card T + 1 ≥ 1 > 0`; and the row-scaled layer is
      real when all of its inputs are;
    * the law: when the coefficients, the features and the weights are real, the starting value is
      zero, and every edge of `T n` reads its second coefficient at `n`, then scaling each edge's
      message by `dinv (gs e) · dinv n` and adding up equals adding up the row-scaled messages and
      scaling once by `dinv n`. Both sides are images of expressions over `ℝ`, where this is
      distributivity of the multiplication by `dinv n` over the finite sum. The bias and the
      lower bound of the maximum are applied alike on both sides and need not be real.
-/
import proofs.«155647_j65274912964675_2_alg».proof.Proof.LibGcnLayer
import proofs.«155647_j65274912964675_2_alg».proof.Proof.LibRealSums

noncomputable section

open scoped BigOperators

namespace Cert.Gcn

open Cert.RealSums
open Idealize.ShloMosaic

variable {ν ε κ : Type*} [Fintype κ]

/-- The single-precision word `0x3F800000` denotes the real number one. -/
theorem ofBits_one_f32 : Ideal.ofBits .f32 0x3F800000#32 = ((1 : ℝ) : EReal) := by
  simp [Ideal.ofBits, Ideal.ieee, -EReal.coe_mul]; norm_num

/-- A real feature row times real weights is a real number in every channel. -/
theorem lin_isReal (hin : ν → κ → EReal) (W : κ → κ → EReal) (hh : ∀ n k, IsReal (hin n k))
    (hW : ∀ k j, IsReal (W k j)) (n : ν) (j : κ) : IsReal (lin hin W n j) :=
  isReal_sum _ _ fun k _ => (hh n k).mul (hW k j)

/-- The coefficient of a node is real: `z + ∑_{e ∈ T} 1 + 1` is the real number `card T + 1`, which is positive,
    and the inverse square root of a positive real is a real. -/
theorem dinv_isReal (T : Finset ε) (z one : EReal) (hz : z = 0) (hone : one = ((1 : ℝ) : EReal)) :
    IsReal (Ideal.rsqrt ((z + ∑ _e ∈ T, one) + one)) := by
  subst hz hone
  have harg : ((0 : EReal) + ∑ _e ∈ T, ((1 : ℝ) : EReal)) + ((1 : ℝ) : EReal) = (((T.card : ℝ) + 1 : ℝ) : EReal) := by
    rw [zero_add, ← coe_sum, Finset.sum_const, nsmul_eq_mul, mul_one, ← EReal.coe_add]
  rw [harg, Ideal.rsqrt_coe]
  have hpos : (0 : ℝ) < (T.card : ℝ) + 1 := by positivity
  rw [if_neg (not_lt.mpr hpos.le), if_neg hpos.ne']
  exact isReal_coe _

/-- The row-scaled layer is real when all of its inputs are. -/
theorem layerK_isReal (dinv : ν → EReal) (gs : ε → ν) (T : ν → Finset ε) (z zr : EReal)
    (hin : ν → κ → EReal) (W : κ → κ → EReal) (b : κ → EReal)
    (hd : ∀ n, IsReal (dinv n)) (hz : IsReal z) (hzr : IsReal zr) (hh : ∀ n k, IsReal (hin n k))
    (hW : ∀ k j, IsReal (W k j)) (hb : ∀ j, IsReal (b j)) (n : ν) (j : κ) :
    IsReal (layerK dinv gs T z zr hin W b n j) := by
  have hl : ∀ m, IsReal (lin hin W m j) := fun m => lin_isReal hin W hh hW m j
  unfold layerK
  refine IsReal.max (IsReal.add (IsReal.mul (hd n) (IsReal.add (IsReal.add hz ?_) ((hl n).mul (hd n)))) (hb j)) hzr
  exact isReal_sum _ _ fun e _ => (hl (gs e)).mul (hd (gs e))

/-- The law of the layer: scaling every message by both coefficients equals scaling the rows, adding, and scaling the
    total once. -/
theorem layerR_eq_layerK (dinv : ν → EReal) (gs gd : ε → ν) (T : ν → Finset ε) (z zr : EReal)
    (hin : ν → κ → EReal) (W : κ → κ → EReal) (b : κ → EReal)
    (hz : z = 0) (hd : ∀ n, IsReal (dinv n)) (hh : ∀ n k, IsReal (hin n k)) (hW : ∀ k j, IsReal (W k j))
    (n : ν) (j : κ) (hgd : ∀ e ∈ T n, gd e = n) :
    layerR dinv gs gd T z zr hin W b n j = layerK dinv gs T z zr hin W b n j := by
  subst hz
  -- real witnesses: the coefficients and channel `j` of the product
  have hdr : ∀ m, dinv m = (((dinv m).toReal : ℝ) : EReal) := fun m => ((hd m).coe_toReal).symm
  have hlr : ∀ m, lin hin W m j = (((lin hin W m j).toReal : ℝ) : EReal) :=
    fun m => ((lin_isReal hin W hh hW m j).coe_toReal).symm
  set d : ν → ℝ := fun m => (dinv m).toReal with hd_def
  set l : ν → ℝ := fun m => (lin hin W m j).toReal with hl_def
  unfold layerR layerK
  refine congrArg (fun v => max (v + b j) zr) ?_
  -- the left side as the image of a real expression
  have hL : ((0 : EReal) + ∑ e ∈ T n, lin hin W (gs e) j * (dinv (gs e) * dinv (gd e))) + lin hin W n j * (dinv n * dinv n)
      = (((∑ e ∈ T n, l (gs e) * (d (gs e) * d n)) + l n * (d n * d n) : ℝ) : EReal) := by
    rw [zero_add, EReal.coe_add, coe_sum]
    congr 1
    · refine Finset.sum_congr rfl fun e he => ?_
      rw [hgd e he, hlr (gs e), hdr (gs e), hdr n, ← EReal.coe_mul, ← EReal.coe_mul]
    · rw [hlr n, hdr n, ← EReal.coe_mul, ← EReal.coe_mul]
  -- the right side as the image of a real expression
  have hR : dinv n * (((0 : EReal) + ∑ e ∈ T n, lin hin W (gs e) j * dinv (gs e)) + lin hin W n j * dinv n)
      = ((d n * ((∑ e ∈ T n, l (gs e) * d (gs e)) + l n * d n) : ℝ) : EReal) := by
    rw [zero_add, EReal.coe_mul, EReal.coe_add, coe_sum]
    congr 1
    · exact hdr n
    · congr 1
      · refine Finset.sum_congr rfl fun e _ => ?_
        rw [hlr (gs e), hdr (gs e), ← EReal.coe_mul]
      · rw [hlr n, hdr n, ← EReal.coe_mul]
  rw [hL, hR]
  congr 1
  -- over ℝ: distributivity
  rw [mul_add, Finset.mul_sum]
  congr 1
  · exact Finset.sum_congr rfl fun e _ => by ring
  · ring

end Cert.Gcn

end
-- ==== Proof.RefIndex.lean ====
/-
  Two facts about the index columns of the reference, and the coefficient they produce.

  The reference computes, from the destination number `dst e` of every edge `e`,
    * the degree coefficient of node `n`: the accumulating scatter of a vector of ones, by the column of the raw
      destination numbers, into a vector of zeros, then plus one, then the inverse square root. Read at node `n`
      this is `1 / √(0 + ∑_{e lands on n} 1 + 1)`, where an edge lands on `n` when its raw destination number
      lies in `[0, N)` and equals `n`. The argument is the real number `(number of such edges) + 1 > 0`, so the
      coefficient is a real number;
    * the column by which it later reads the coefficient of an edge's destination: the destination number with
      `N` added when it is negative. For an edge that lands on `n` the raw number is non-negative, so the
      wrapped number is the raw one and the clamped row read through the wrapped column is `n` itself.
-/
import proofs.«155647_j65274912964675_2_alg».proof.Proof.Gen.ReferenceIdeal.Read
import proofs.«155647_j65274912964675_2_alg».proof.Proof.LibSegment
import proofs.«155647_j65274912964675_2_alg».proof.Proof.LibGcnLaw

noncomputable section

open scoped BigOperators

namespace Cert.ReferenceIdeal.RefIndex

open Cert.ReferenceIdeal Cert.ReferenceIdeal.Read Idealize.ShloMosaic Idealize.ShloMosaic.ValueIdx
  Idealize.ShloMosaic.Segment

/-- The reference's scatter of scalars has the dimension numbers of a scatter by a column of row numbers: operand
    of length `N`, a column of `E` row numbers, `E` scalar updates. -/
theorem scatter_eq : scatter_S100000_S1600000x1_S1600000_n_0_0_1
    = vecScatterDims 100000 1600000 Facts₀.scatter_S100000_S1600000x1_S1600000_n_0_0_1_wf := rfl

/-- The number of arriving edges, as the reference accumulates it: zero plus a one for every edge whose raw
    destination number lands on node `n`. -/
theorem count_apply (ei : IVec S2x1600000 32) (n : Fin 100000) :
    val_main_v8 (F := Ideal) ei (ix1 n)
      = Ideal.ofBits .f32 0x00000000#32
        + ∑ _e ∈ Finset.univ.filter (fun e : Fin 1600000 => landRow 100000 (val_main_v7 (F := Ideal) ei) e = some n),
            Ideal.ofBits .f32 0x3F800000#32 := by
  unfold val_main_v8
  rw [scatter_eq, scatterAddVec_apply, val_main_v6_apply, val_main_cst_0_apply]
  refine congrArg (fun t => Ideal.ofBits .f32 0x00000000#32 + t) (Finset.sum_congr rfl fun e _ => ?_)
  rw [val_main_v5_apply, val_main_cst_apply]
  rfl

/-- The coefficient of node `n` in the reference: the inverse square root of zero, plus one for every edge landing on
    `n`, plus one. -/
theorem dinv_eq (ei : IVec S2x1600000 32) (n : Fin 100000) :
    val_main_v11 (F := Ideal) ei (ix1 n)
      = Ideal.rsqrt ((Ideal.ofBits .f32 0x00000000#32
          + ∑ _e ∈ Finset.univ.filter (fun e : Fin 1600000 => landRow 100000 (val_main_v7 (F := Ideal) ei) e = some n),
              Ideal.ofBits .f32 0x3F800000#32) + Ideal.ofBits .f32 0x3F800000#32) := by
  rw [val_main_v11_apply, val_main_v10_apply, count_apply, val_main_v9_apply, val_main_cst_1_apply,
    Ideal.hostUnary_rsqrt_def, Ideal.addf_def, Ideal.ofBits_def]

/-- The coefficient of every node is a real number. -/
theorem dinv_real (ei : IVec S2x1600000 32) (n : Fin 100000) :
    Cert.RealSums.IsReal (val_main_v11 (F := Ideal) ei (ix1 n)) := by
  rw [dinv_eq]
  exact Cert.Gcn.dinv_isReal _ _ _ Ideal.ofBits_zero_f32 Cert.Gcn.ofBits_one_f32

/-- The wrapped destination number of an edge is the raw one when the raw one is not negative. -/
theorem wrapped_eq_raw (ei : IVec S2x1600000 32) (e : Fin 1600000)
    (h0 : 0 ≤ rowInt (val_main_v7 (F := Ideal) ei) e) :
    rowInt (val_main_v24 (F := Ideal) ei) e = rowInt (val_main_v7 (F := Ideal) ei) e := by
  unfold rowInt at h0 ⊢
  rw [val_main_v7_apply] at h0 ⊢
  rw [val_main_v24_apply, val_main_v23_apply, val_main_v20_apply, val_main_v19_apply, val_main_c_3_apply]
  show (Scalar.select (IntOp.cmpi .slt (val_main_v3 (F := Ideal) ei (idx_main_v7 (ix2 e (0 : Fin 1)))) 0#32) _
      (val_main_v3 (F := Ideal) ei (idx_main_v7 (ix2 e (0 : Fin 1))))).toInt = _
  generalize val_main_v3 (F := Ideal) ei (idx_main_v7 (ix2 e (0 : Fin 1))) = d at h0 ⊢
  have hc : IntOp.cmpi .slt d 0#32 = 0#1 := by
    have hs : d.slt 0#32 = false := by
      rw [BitVec.slt_eq_decide]
      exact decide_eq_false (by simpa using h0)
    show BitVec.ofBool (d.slt 0#32) = 0#1
    rw [hs]; rfl
  rw [hc]
  rfl

/-- An edge whose raw destination number lands on node `n` reads the coefficient of node `n` through the wrapped
    column. -/
theorem wrapped_row_of_lands (ei : IVec S2x1600000 32) (e : Fin 1600000) (n : Fin 100000)
    (h : landRow 100000 (val_main_v7 (F := Ideal) ei) e = some n) :
    clampRow (by norm_num : 0 < 100000) (val_main_v24 (F := Ideal) ei) e = n := by
  refine clampRow_of_landRow _ (val_main_v7 (F := Ideal) ei) _ e n h (wrapped_eq_raw ei e ?_)
  unfold landRow at h
  split at h
  · rename_i hr
    exact hr.1
  · cases h

end Cert.ReferenceIdeal.RefIndex

end
-- ==== Proof.LibGcnLawTwo.lean ====
/-
  Two graph-convolution layers in a row, written both ways, agree on real numbers.

  The first layer's two forms agree at every node and channel, so the second layer is applied to the same features
  on both sides; these features are real numbers (the row-scaled form of a layer with real inputs is real), so the
  law of one layer applies once more. The starting values of the two sums must be zero, the lower bound of the first
  maximum and the first bias must be real (they enter the features of the second layer); the second bias and the
  second lower bound are applied alike on both sides and may be anything.
-/
import proofs.«155647_j65274912964675_2_alg».proof.Proof.LibGcnLaw

noncomputable section

open scoped BigOperators

namespace Cert.Gcn

open Cert.RealSums

variable {ν ε κ : Type*} [Fintype κ]

/-- The law of two layers. -/
theorem twoLayerR_eq_twoLayerK (dinv : ν → EReal) (gs gd : ε → ν) (T : ν → Finset ε) (z1 zr1 z2 zr2 : EReal)
    (hin : ν → κ → EReal) (W1 : κ → κ → EReal) (b1 : κ → EReal) (W2 : κ → κ → EReal) (b2 : κ → EReal)
    (hz1 : z1 = 0) (hz2 : z2 = 0) (hzr1 : IsReal zr1) (hd : ∀ n, IsReal (dinv n)) (hh : ∀ n k, IsReal (hin n k))
    (hW1 : ∀ k j, IsReal (W1 k j)) (hb1 : ∀ j, IsReal (b1 j)) (hW2 : ∀ k j, IsReal (W2 k j))
    (hgd : ∀ n, ∀ e ∈ T n, gd e = n) (n : ν) (j : κ) :
    layerR dinv gs gd T z2 zr2 (layerR dinv gs gd T z1 zr1 hin W1 b1) W2 b2 n j
      = layerK dinv gs T z2 zr2 (layerK dinv gs T z1 zr1 hin W1 b1) W2 b2 n j := by
  have h1 : layerR dinv gs gd T z1 zr1 hin W1 b1 = layerK dinv gs T z1 zr1 hin W1 b1 :=
    funext fun m => funext fun i => layerR_eq_layerK dinv gs gd T z1 zr1 hin W1 b1 hz1 hd hh hW1 m i (hgd m)
  have hz1r : IsReal z1 := hz1 ▸ isReal_zero
  rw [h1]
  exact layerR_eq_layerK dinv gs gd T z2 zr2 _ W2 b2 hz2 hd
    (fun m k => layerK_isReal dinv gs T z1 zr1 hin W1 b1 hd hz1r hzr1 hh hW1 hb1 m k) hW2 n j (hgd n)

end Cert.Gcn

end
-- ==== Proof.RefAlgebra.lean ====
/-
  The reference's result in the row-scaled form.

  The reference's result at node `n`, channel `j` is the layer of the specification applied twice in the form that
  scales every edge's message by the product of the two coefficients. Its coefficients are real numbers (the inverse
  square root of a positive count), its sums start from the zero word, an edge that lands on node `n` reads its second
  coefficient at `n` (its wrapped destination number is the raw one), and the features, weights and biases are real by
  hypothesis. So the law of two layers turns it into the form that scales the rows first, adds, and scales the total
  once more.
-/
import proofs.«155647_j65274912964675_2_alg».proof.Proof.RefValue
import proofs.«155647_j65274912964675_2_alg».proof.Proof.RefIndex
import proofs.«155647_j65274912964675_2_alg».proof.Proof.LibGcnLaw
import proofs.«155647_j65274912964675_2_alg».proof.Proof.LibGcnLawTwo
import proofs.«155647_j65274912964675_2_alg».proof.Proof.LibRealSums

noncomputable section

open scoped BigOperators

namespace Cert.ReferenceIdeal.RefAlgebra

open Cert.ReferenceIdeal Cert.ReferenceIdeal.Read Cert.ReferenceIdeal.RefValue Cert.ReferenceIdeal.RefIndex
  Idealize.ShloMosaic Idealize.ShloMosaic.ValueIdx Idealize.ShloMosaic.Segment

/-- The starting value of the sums and the lower bound of the maxima is zero. -/
theorem zw_eq_zero : zw = 0 := Ideal.ofBits_zero_f32

/-- The zero word is a real number. -/
theorem zw_isReal : Cert.RealSums.IsReal zw := Cert.RealSums.isReal_ofBits_zero

/-- The coefficient of every node is a real number. -/
theorem dinvR_isReal (ei : IVec S2x1600000 32) (n : Fin 100000) : Cert.RealSums.IsReal (dinvR ei n) := dinv_real ei n

/-- An edge that arrives at node `n` reads its second coefficient at node `n`. -/
theorem gdR_of_mem_TR (ei : IVec S2x1600000 32) (n : Fin 100000) (e : Fin 1600000) (he : e ∈ TR ei n) : gdR ei e = n := by
  unfold TR at he
  exact wrapped_row_of_lands ei e n (Finset.mem_filter.mp he).2

/-- The reference's result is the row-scaled layer applied twice. -/
theorem ref_kernel_form (x : FVec Ideal S100000x128 .f32) (ei : IVec S2x1600000 32) (W1 : FVec Ideal S128x128 .f32)
    (b1 : FVec Ideal S128 .f32) (W2 : FVec Ideal S128x128 .f32) (b2 : FVec Ideal S128 .f32)
    (hx : ∀ i, Cert.RealSums.IsReal (x i)) (hW1 : ∀ i, Cert.RealSums.IsReal (W1 i))
    (hb1 : ∀ i, Cert.RealSums.IsReal (b1 i)) (hW2 : ∀ i, Cert.RealSums.IsReal (W2 i))
    (hb2 : ∀ i, Cert.RealSums.IsReal (b2 i)) (n : Fin 100000) (j : Fin 128) :
    val_main_v93 (F := Ideal) x ei W1 b1 W2 b2 (ix2 n j)
      = Cert.Gcn.layerK (dinvR ei) (gsR ei) (TR ei) zw zw
          (Cert.Gcn.layerK (dinvR ei) (gsR ei) (TR ei) zw zw (fun n k => x (ix2 n k)) (fun k j => W1 (ix2 k j))
            (fun j => b1 (ix1 j)))
          (fun k j => W2 (ix2 k j)) (fun j => b2 (ix1 j)) n j := by
  rw [ref_value]
  exact Cert.Gcn.twoLayerR_eq_twoLayerK (dinvR ei) (gsR ei) (gdR ei) (TR ei) zw zw zw zw
    (fun n k => x (ix2 n k)) (fun k j => W1 (ix2 k j)) (fun j => b1 (ix1 j)) (fun k j => W2 (ix2 k j))
    (fun j => b2 (ix1 j)) zw_eq_zero zw_eq_zero zw_isReal (dinvR_isReal ei) (fun m k => hx (ix2 m k))
    (fun k i => hW1 (ix2 k i)) (fun i => hb1 (ix1 i)) (fun k i => hW2 (ix2 k i)) (gdR_of_mem_TR ei) n j

end Cert.ReferenceIdeal.RefAlgebra

end
-- ==== Proof.Finite.lean ====
/-
  The precondition "all float inputs are finite" gives real numbers.

  The precondition compares the absolute value of every element of the five floating-point inputs with the word of
  `+∞` (strictly less), takes the conjunction over all indices of each array, and the conjunction of the five
  results. When that single bit is one, every one of the five conjunctions is one, so every comparison is one, so
  `max x (-x) < ⊤` for every element `x`. On the extended reals this excludes `x = ⊤` (then `max x (-x) = ⊤`) and
  `x = ⊥` (then `-x = ⊤`), so `x` is the image of a real number.
-/
import proofs.«155647_j65274912964675_2_alg».proof.Pre_finite_inputs
import proofs.«155647_j65274912964675_2_alg».proof.Proof.Gen.Pre_finite_inputs
import proofs.«155647_j65274912964675_2_alg».proof.Proof.LibRealSums
import Idealize.ShloMosaic.Lib.ReduceAll
import Idealize.ShloMosaic.Lib.ValueIdx

noncomputable section

namespace Cert.Gcn.Finite

open Idealize.ShloMosaic Idealize.ShloMosaic.ValueIdx Cert.RealSums Cert.Pre_finite_inputs

/-- The result shape of a reduction over all axes has exactly one index. -/
instance subsingleton_S_ : Subsingleton S_.Idx := ⟨fun a b => funext fun d => d.elim0⟩

/-- The single-precision word `0x7F800000` denotes `+∞`. -/
theorem ofBits_inf_f32 : Ideal.ofBits .f32 0x7F800000#32 = ⊤ := by simp [Ideal.ofBits, Ideal.ieee]

/-- An extended real whose absolute value is strictly below `+∞` is a real number. -/
theorem isReal_of_abs_lt_inf (x : EReal)
    (h : Ideal.cmp .olt (max x (-x)) (Ideal.ofBits .f32 0x7F800000#32) = 1#1) : IsReal x := by
  rw [ofBits_inf_f32] at h
  have hlt : max x (-x) < ⊤ := by
    by_contra hn
    simp [Ideal.cmp, hn] at h
  induction x using EReal.rec with
  | bot => exact absurd hlt (by simp)
  | coe r => exact isReal_coe r
  | top => exact absurd hlt (by simp)

/-- One array: if the conjunction over all indices of `|x i| < +∞` is one, every element is real. -/
theorem isReal_of_all {s : Shape} {axes : List (Fin s.rank)} (dims : Fin S_.rank → Fin s.rank) (hb : S_.BroadcastsInDim s dims)
    (hr : s.ReducesTo axes S_) (hu : 0 < S_.numel) (x : FVec Ideal s .f32)
    (h : Host.reduce IntOp.andi
          (cmpf .olt (Host.absf x) (broadcastInDim s dims hb (constant (F := Ideal) S_ .f32 0x7F800000#32)))
          (constantI S_ 1 1#1) hr hu ix0 = 1#1) (i : s.Idx) : IsReal (x i) := by
  have he := Host.reduce_andi_all _ _ hr hu ix0 h i
  exact isReal_of_abs_lt_inf (x i) he

/-- All five floating-point inputs consist of real numbers when the precondition holds. -/
theorem reals_of_pre (x0 : FVec Ideal S100000x128 .f32) (x1 : IVec S2x1600000 32) (x2 : FVec Ideal S128x128 .f32)
    (x3 : FVec Ideal S128 .f32) (x4 : FVec Ideal S128x128 .f32) (x5 : FVec Ideal S128 .f32)
    (h : Cert.Pre_finite_inputs.fn (F := Ideal) x0 x1 x2 x3 x4 x5 = fun _ => 1#1) :
    (∀ i, IsReal (x0 i)) ∧ (∀ i, IsReal (x2 i)) ∧ (∀ i, IsReal (x3 i)) ∧ (∀ i, IsReal (x4 i)) ∧ (∀ i, IsReal (x5 i)) := by
  have h0 := congrFun h ix0
  dsimp only [Cert.Pre_finite_inputs.fn, Cert.Pre_finite_inputs.fn_part1] at h0
  -- the conjunction of five bits is one: each is one
  obtain ⟨h0123, h5⟩ := IntOp.andi_eq_one.1 h0
  obtain ⟨h012, h4⟩ := IntOp.andi_eq_one.1 h0123
  obtain ⟨h01, h3⟩ := IntOp.andi_eq_one.1 h012
  obtain ⟨h00, h2⟩ := IntOp.andi_eq_one.1 h01
  exact ⟨isReal_of_all _ _ _ _ x0 h00, isReal_of_all _ _ _ _ x2 h2, isReal_of_all _ _ _ _ x3 h3,
    isReal_of_all _ _ _ _ x4 h4, isReal_of_all _ _ _ _ x5 h5⟩

end Cert.Gcn.Finite

end
-- ==== Proof.lean ====
/-
  A two-layer graph convolution with symmetric normalisation, computed two ways, is one function of its inputs on the
  extended reals.

  Both programs take node features x [100000, 128], an edge list [2, 1600000] of source and destination numbers, and
  two layers' weights and biases. Both form, from the destination numbers alone, the coefficient
  dinv n = (1 + number of edges arriving at n)^(-1/2); an edge whose number is outside the node range arrives nowhere,
  and a source number is wrapped when negative and clamped into the range before its row is read.

  The reference computes each layer as  max (Σ_{e → n} h (src e) · (dinv (src e) · dinv (dst e)) + h n · (dinv n · dinv n) + b) 0
  with h = hin · W. The kernel scales the rows first, hs = h · dinv, adds up hs (src e) over the edges arriving at n,
  adds hs n, scales the total once by dinv n, adds b and takes the maximum with 0: its three regions compute hs of the
  first layer, the first layer's activation together with hs of the second layer, and the second layer's activation,
  and the edge sums are taken between the regions.

  The two agree because every quantity is a real number when the float inputs are finite: the coefficients are inverse
  square roots of reals at least one, the products and sums of reals are real, and over the reals multiplying by dinv n
  distributes over the edge sum; an edge that arrives at n reads its destination coefficient at n.

  The frames of the two kernel programs are the generated ones; the reference's frame is its generated run with the
  result dropped. The ideal pass rewrote nothing, so the idealization claim is trivial.
-/
import proofs.«155647_j65274912964675_2_alg».proof.Defs
import proofs.«155647_j65274912964675_2_alg».proof.Proof.Gen.Kernel
import proofs.«155647_j65274912964675_2_alg».proof.Proof.Gen.Kernel.Skeleton
import proofs.«155647_j65274912964675_2_alg».proof.Proof.Gen.Kernel.Launch
import proofs.«155647_j65274912964675_2_alg».proof.Proof.Gen.Kernel.Points
import proofs.«155647_j65274912964675_2_alg».proof.Proof.Gen.Kernel.Frame
import proofs.«155647_j65274912964675_2_alg».proof.Proof.Gen.KernelIdeal
import proofs.«155647_j65274912964675_2_alg».proof.Proof.Gen.KernelIdeal.Skeleton
import proofs.«155647_j65274912964675_2_alg».proof.Proof.Gen.KernelIdeal.Launch
import proofs.«155647_j65274912964675_2_alg».proof.Proof.Gen.KernelIdeal.Points
import proofs.«155647_j65274912964675_2_alg».proof.Proof.Gen.KernelIdeal.Frame
import proofs.«155647_j65274912964675_2_alg».proof.Proof.Gen.ReferenceIdeal
import proofs.«155647_j65274912964675_2_alg».proof.Proof.Gen.Pre_finite_inputs
import proofs.«155647_j65274912964675_2_alg».proof.Proof.Gen.ReferenceIdeal.Run
import proofs.«155647_j65274912964675_2_alg».proof.Proof.Gen.ReferenceIdeal.Read
import proofs.«155647_j65274912964675_2_alg».proof.Proof.KRun
import proofs.«155647_j65274912964675_2_alg».proof.Proof.KHostB
import proofs.«155647_j65274912964675_2_alg».proof.Proof.KValue
import proofs.«155647_j65274912964675_2_alg».proof.Proof.RefAlgebra
import proofs.«155647_j65274912964675_2_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The result buffer of the kernel program after its run is the kernel's value function of the argument arrays. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W6 m ρ c (Proc.devRef .tc Cert.KernelIdeal.main_v36)
      = Cert.KernelIdeal.Hand.kernelValue
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5)) :=
  Cert.KernelIdeal.Hand.W6_v36 m ρ c

/-- Both programs run, from memories agreeing on the arguments, to the same result: the kernel's buffer holds the
    kernel's value function of the arguments, the reference's the reference's, and the two functions agree entry by
    entry when the float inputs are finite. -/
theorem algebraic : Cert.algebraic_KernelIdeal_ReferenceIdeal := by
  intro m ρ m' ρ' hpre hagree
  refine ⟨fun c => Cert.KernelIdeal.Gen.W6 m ρ c (Proc.devRef .tc Cert.KernelIdeal.main_v36),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hW1, hb1, hW2, hb2⟩ := Cert.Gcn.Finite.reals_of_pre _ _ _ _ _ _ (hpre c)
  rw [Cert.ReferenceIdeal.Read.val_main_v93_eq, (hagree c).1, (hagree c).2.1, (hagree c).2.2.1, (hagree c).2.2.2.1,
    (hagree c).2.2.2.2.1, (hagree c).2.2.2.2.2]
  show _ = Cert.KernelIdeal.Gen.W6 m ρ c (Proc.devRef .tc Cert.KernelIdeal.main_v36)
  rw [kernel_result]
  funext i
  have hi : i = ix2 (n0 := 100000) (n1 := 128) (i 0) (i 1) := eq_ix2 i
  rw [hi, Cert.ReferenceIdeal.RefAlgebra.ref_kernel_form _ _ _ _ _ _ hx hW1 hb1 hW2 hb2 (i 0) (i 1)]
  exact (Cert.KernelIdeal.Hand.kernelValue_apply _ _ _ _ _ _ (i 0) (i 1)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
